-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩
abbrev S5000 : Shape := ⟨1, ![5000]⟩

abbrev nBuf : Space → Nat
  | .hbm => 57
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S1x64, .f32⟩
  | .hbm, ⟨55, _⟩ => ⟨S50000x128, .f32⟩
  | .hbm, ⟨56, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  concatenates_S5000x64_S5000x64_S5000x128_d1 : Shape.Concatenates [S5000x64, S5000x64] S5000x128 1
  slices_S50000x128_S50000x64_0_0 : S50000x128.Slices ![0, 0] S50000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000, .f32⟩
  | .hbm, ⟨88, _⟩ => ⟨S50000x1, .f32⟩
  | .hbm, ⟨89, _⟩ => ⟨S50000x1, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibTypedRef.lean ====
/-
  Typed references to buffers: moving a value to the buffer's own type and back.
-/
import Idealize.ShloMosaic.Lib.StableHlo

namespace Cert.LibTypedRef

open Idealize.ShloMosaic Idealize.ShloMosaic.StableHlo

/-- A typed reference carries a proof that its buffer's type is the value's type, and moves contents
    between the two along it. Moving a value to the buffer's type and back gives the value: the two
    transports run along one equation in opposite directions. -/
theorem ofBuf_toBuf {sig : RefSig} {T : BufTy} {Val : EltTy → Type} (x : TRef sig T) (v : T.Contents Val) :
    x.ofBuf (x.toBuf v) = v := by
  rcases x with ⟨ref, ty_eq, h1, h2⟩
  cases ty_eq
  rfl

/-- The other way round: from the buffer's type to the value's and back. -/
theorem toBuf_ofBuf {sig : RefSig} {T : BufTy} {Val : EltTy → Type} (x : TRef sig T) (v : x.ref.ty.Contents Val) :
    x.toBuf (x.ofBuf v) = v := by
  rcases x with ⟨ref, ty_eq, h1, h2⟩
  cases ty_eq
  rfl

end Cert.LibTypedRef
-- ==== Proof.KernelRun.lean ====
/-
  The kernel's program is five segments: host lines, the first pallas_call (ten row tiles of 5000 nodes), host
  lines, the second pallas_call (the same ten tiles), and a last host line. The launch theorem for a program cut into
  segments gives, at the end of every weakly fair execution, each unscoped buffer at the contents the segments fold
  to from the launch memory. Here that is read off at the result buffer as well as at the eight arguments: the
  result ends at the fold's contents, the arguments end as launched.
-/
import proofs.«133883_j77214922048048_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program ends with the result buffer at the contents the five
    segments fold to, and with the arguments as launched. -/
theorem run_named : θ_run defs (onTc (τ := τ) (main (F := F))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v37 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibGatherRows.lean ====
/-
  A row lookup in a table, read at an index.

  `table[idx]` for a table of `N` rows of `C` numbers and `B` integer row numbers lowers to a `stablehlo.gather` whose
  start indices are a `[B, 1]` array and whose slices are whole rows. Each start index is read as a signed integer and
  clamped into `[0, N - 1]`, so every integer names a row. Two layouts occur:

  * rows kept as rows: operand `[N, C]`, result `[B, C]`; result entry `(b, i)` is entry `i` of the row `idx[b]` names;
  * the table transposed, samples on the last axis: operand `[C, N]`, result `[C, B]`; result entry `(i, b)` is entry
    `i` of the column `idx[b]` names.

  Both read the same number: entry `i` of row `clampRow N idx[b]`.
-/
import Idealize.ShloMosaic.Lib.ValueIdx

noncomputable section

namespace Idealize.ShloMosaic.GatherRows

open Idealize.ShloMosaic Idealize.ShloMosaic.ValueIdx

/-- The row of an `N`-row table a start index names: the word read as a signed integer (a negative one reads as `0`),
    clamped to the last row. -/
def clampRow {w : Nat} (N : Nat) (v : BitVec w) : Nat := min v.toInt.toNat (N - 1)

theorem clampRow_lt {w : Nat} {N : Nat} (hN : 0 < N) (v : BitVec w) : clampRow N v < N := by
  unfold clampRow; omega

/-- An axis of a rank-2 shape is the first or the second. -/
theorem axis2_cases {S : Shape} (h : S.rank = 2) (a : Fin S.rank) :
    a = ⟨0, by omega⟩ ∨ a = ⟨1, by omega⟩ := by
  have h2 : a.val < 2 := h ▸ a.isLt
  rcases Nat.lt_or_ge a.val 1 with h1 | h1
  · left; exact Fin.ext (by show a.val = 0; omega)
  · right; exact Fin.ext (by show a.val = 1; omega)

section
variable {α : Type}

/-- Rows kept as rows: operand `[N, C]`, start indices `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The table transposed: operand `[C, N]`, start indices `[B, 1]`, result `[C, B]`. -/
abbrev colDims (N C B : Nat)
    (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Result entry `(b, i)` of the row lookup is entry `i` of the row `idx[b]` names. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (i : Fin C) :
    Host.gather (rowDims N C B wf) x idx (ix2 b i)
      = x (ix2 ⟨clampRow N (idx (ix2 b (0 : Fin 1))), clampRow_lt hN _⟩ i) := by
  unfold Host.gather
  congr 1
  funext a
  refine Fin.ext ?_
  show (rowDims N C B wf).start (ix2 b i) idx a + (rowDims N C B wf).batchCoord (ix2 b i) a
      + (rowDims N C B wf).offCoord (ix2 b i) a = _
  rw [GatherDims.batchCoord_eq_zero _ _ _ List.not_mem_nil]
  rcases axis2_cases (S := ⟨2, ![N, C]⟩) rfl a with rfl | rfl
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N C B wf).startIndexMap from List.mem_singleton.mpr rfl)]
    have hsi : (rowDims N C B wf).siIdx (ix2 b i) ⟨List.idxOf (⟨0, by decide⟩ : Fin 2) (rowDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 2) ∈ (rowDims N C B wf).startIndexMap :=
      (by decide : ¬ (⟨1, by decide⟩ : Fin 2) ∈ ([0] : List (Fin 2)))
    have hc : ¬ (⟨1, by decide⟩ : Fin 2) ∈ (rowDims N C B wf).collapsedSliceDims :=
      (by decide : ¬ (⟨1, by decide⟩ : Fin 2) ∈ ([0] : List (Fin 2)))
    have h0 : (rowDims N C B wf).start (ix2 b i) idx (⟨1, by decide⟩ : Fin 2) = 0 := by
      unfold GatherDims.start
      rw [dif_neg hn]
    have h1 : (rowDims N C B wf).offCoord (ix2 b i) (⟨1, by decide⟩ : Fin 2) = i.val := by
      unfold GatherDims.offCoord
      rw [dif_pos ((GatherDims.mem_sKept _ _).mpr ⟨hc, List.not_mem_nil⟩)]
      rfl
    show (rowDims N C B wf).start (ix2 b i) idx (⟨1, by decide⟩ : Fin 2) + 0
      + (rowDims N C B wf).offCoord (ix2 b i) (⟨1, by decide⟩ : Fin 2) = i.val
    rw [h0, h1]; omega

/-- Result entry `(i, b)` of the lookup in the transposed table is entry `i` of the column `idx[b]` names. -/
theorem gather_cols_apply {N C B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (i : Fin C) (b : Fin B) :
    Host.gather (colDims N C B wf) x idx (ix2 i b)
      = x (ix2 i ⟨clampRow N (idx (ix2 b (0 : Fin 1))), clampRow_lt hN _⟩) := by
  unfold Host.gather
  congr 1
  funext a
  refine Fin.ext ?_
  show (colDims N C B wf).start (ix2 i b) idx a + (colDims N C B wf).batchCoord (ix2 i b) a
      + (colDims N C B wf).offCoord (ix2 i b) a = _
  rw [GatherDims.batchCoord_eq_zero _ _ _ List.not_mem_nil]
  rcases axis2_cases (S := ⟨2, ![C, N]⟩) rfl a with rfl | rfl
  · have hn : ¬ (⟨0, by decide⟩ : Fin 2) ∈ (colDims N C B wf).startIndexMap :=
      (by decide : ¬ (⟨0, by decide⟩ : Fin 2) ∈ ([1] : List (Fin 2)))
    have hc : ¬ (⟨0, by decide⟩ : Fin 2) ∈ (colDims N C B wf).collapsedSliceDims :=
      (by decide : ¬ (⟨0, by decide⟩ : Fin 2) ∈ ([1] : List (Fin 2)))
    have h0 : (colDims N C B wf).start (ix2 i b) idx (⟨0, by decide⟩ : Fin 2) = 0 := by
      unfold GatherDims.start
      rw [dif_neg hn]
    have h1 : (colDims N C B wf).offCoord (ix2 i b) (⟨0, by decide⟩ : Fin 2) = i.val := by
      unfold GatherDims.offCoord
      rw [dif_pos ((GatherDims.mem_sKept _ _).mpr ⟨hc, List.not_mem_nil⟩)]
      rfl
    show (colDims N C B wf).start (ix2 i b) idx (⟨0, by decide⟩ : Fin 2) + 0
      + (colDims N C B wf).offCoord (ix2 i b) (⟨0, by decide⟩ : Fin 2) = i.val
    rw [h0, h1]; omega
  · rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N C B wf).startIndexMap from List.mem_singleton.mpr rfl)]
    have hsi : (colDims N C B wf).siIdx (ix2 i b) ⟨List.idxOf (⟨1, by decide⟩ : Fin 2) (colDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl

end

end Idealize.ShloMosaic.GatherRows

end
-- ==== Proof.LibScatterAddRows.lean ====
/-
  A scatter-add of rows into a table, read at an index.

  table.at[idx].add(updates) for a table of N rows, B integer row numbers and B update rows lowers to a
  stablehlo.scatter with an add body whose scatter indices are a [B, 1] array and whose update windows are whole
  rows. Update row b is added into the table row whose number is the word idx[b] read as a SIGNED integer; the
  word is neither wrapped nor clamped, and an update whose word names no row (negative, or N and above) is dropped.
  So entry (n, ·) of the result is the table's entry plus the sum of the same entry of every update row b with
  idx[b] = n as integers. Two layouts occur: rows of C numbers (operand [N, C], updates [B, C]) and rows that are
  H × D blocks (operand [N, H, D], updates [B, H, D]).

  The route: an update index lands on a table index exactly when, on every axis, its start plus its window
  coordinate is that index's coordinate (resultIdx?_eq_some_iff); for these dimension numbers the start is the row
  word on axis 0 and 0 elsewhere, the window coordinate 0 on axis 0 and the update's own coordinate elsewhere; the
  update indices that land on (n, c) are then exactly (b, c) over the rows b with idx[b] = n.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-! ## Any scatter -/

section
variable {s si u : Shape} (d : ScatterDims s si u)

/-- An update index lands on the operand index i exactly when start plus window coordinate is i's coordinate on
    every axis: the in-range test adds nothing, since i's coordinates are in range. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have ha := h a
      rw [← hi]
      show _ = ((d.start j idx a + (d.window j a : Int)).toNat : Int)
      omega
    · intro hall
      congr 1
      funext a
      refine Fin.ext ?_
      have ha := h a
      have he := hall a
      show (d.start j idx a + (d.window j a : Int)).toNat = (i a).val
      omega
  · rename_i h
    constructor
    · intro heq; cases heq
    · intro hall
      exfalso
      apply h
      intro a
      have he := hall a
      have hlt := (i a).isLt
      omega

/-- The operand axes the update windows go to are the ones that are not inserted. -/
theorem mem_sKept (a : Fin s.rank) : a ∈ d.sKept ↔ a ∉ d.insertedWindowDims := by
  simp [ScatterDims.sKept, Shape.kept, List.mem_filter, List.mem_finRange]

/-- On an axis the scatter indices do not name, the window starts at 0. -/
theorem start_eq_zero {w : Nat} (j : u.Idx) (idx : IVec si w) (a : Fin s.rank)
    (ha : a ∉ d.scatterDimsToOperandDims) : d.start j idx a = 0 := by
  unfold ScatterDims.start; rw [dif_neg ha]

/-- On an inserted axis the window coordinate is 0. -/
theorem window_eq_zero (j : u.Idx) (a : Fin s.rank) (ha : a ∉ d.sKept) : d.window j a = 0 := by
  unfold ScatterDims.window; rw [dif_neg ha]

end

/-! ## Rows of C numbers -/

/-- Operand [N, C], scatter indices [B, 1], updates [B, C]: update row b goes to the row idx[b] names. -/
abbrev rowsDims (N C B : Nat)
    (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

section Rows
variable {N C B w : Nat} (wf : ScatterDims.WF ⟨2, ![N, C]⟩ ⟨2, ![B, 1]⟩ ⟨2, ![B, C]⟩ [1] [0] [0] 1)

/-- The window of update (b, c') starts, on the row axis, at the word idx[b] read signed. -/
theorem rows_start0 (idx : IVec ⟨2, ![B, 1]⟩ w) (b : Fin B) (c' : Fin C) :
    (rowsDims N C B wf).start (ix2 b c') idx (⟨0, by decide⟩ : Fin 2) = (idx (ix2 b (0 : Fin 1))).toInt := by
  unfold ScatterDims.start
  rw [dif_pos (show (⟨0, by decide⟩ : Fin 2) ∈ (rowsDims N C B wf).scatterDimsToOperandDims from
    List.mem_singleton.mpr rfl)]
  have hsi : (rowsDims N C B wf).siIdx (ix2 b c')
      ⟨List.idxOf (⟨0, by decide⟩ : Fin 2) (rowsDims N C B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, c') on the column axis is c'. -/
theorem rows_window1 (b : Fin B) (c' : Fin C) :
    (rowsDims N C B wf).window (ix2 b c') (⟨1, by decide⟩ : Fin 2) = c'.val := by
  unfold ScatterDims.window
  rw [dif_pos ((mem_sKept _ _).mpr (by decide : ¬ (⟨1, by decide⟩ : Fin 2) ∈ ([0] : List (Fin 2))))]
  rfl

/-- Update (b, c') lands on table entry (n, c) exactly when the word idx[b], read signed, is n, and c' = c. -/
theorem rows_lands_iff (idx : IVec ⟨2, ![B, 1]⟩ w) (b : Fin B) (c' : Fin C) (n : Fin N) (c : Fin C) :
    (rowsDims N C B wf).resultIdx? (ix2 b c') idx = some (ix2 n c)
      ↔ (idx (ix2 b (0 : Fin 1))).toInt = (n.val : Int) ∧ c' = c := by
  rw [resultIdx?_eq_some_iff]
  have hw0 : (rowsDims N C B wf).window (ix2 b c') (⟨0, by decide⟩ : Fin 2) = 0 :=
    window_eq_zero _ _ _ (fun h => ((mem_sKept _ _).mp h) (List.mem_singleton.mpr rfl))
  have hs1 : (rowsDims N C B wf).start (ix2 b c') idx (⟨1, by decide⟩ : Fin 2) = 0 :=
    start_eq_zero _ _ _ _ (by decide : ¬ (⟨1, by decide⟩ : Fin 2) ∈ ([0] : List (Fin 2)))
  constructor
  · intro h
    have h0 := h (⟨0, by decide⟩ : Fin 2)
    have h1 := h (⟨1, by decide⟩ : Fin 2)
    rw [rows_start0, hw0] at h0
    rw [hs1, rows_window1] at h1
    refine ⟨?_, Fin.ext ?_⟩
    · have h0' : (idx (ix2 b (0 : Fin 1))).toInt + ((0 : Nat) : Int) = (n.val : Int) := h0
      omega
    · have h1' : (0 : Int) + (c'.val : Int) = (c.val : Int) := h1
      omega
  · rintro ⟨h0, rfl⟩ a
    match a with
    | ⟨0, _⟩ =>
      rw [rows_start0, hw0]
      show _ = (n.val : Int)
      omega
    | ⟨1, _⟩ =>
      rw [hs1, rows_window1]
      show _ = (c'.val : Int)
      omega

/-- Entry (n, c) of the scatter-add: the table's entry plus the sum, over the update rows b whose word idx[b] read
    signed is n, of entry c of update row b. -/
theorem scatterAdd_rows_apply {φ : FTy} (x : (⟨2, ![N, C]⟩ : Shape).Idx → EReal) (idx : IVec ⟨2, ![B, 1]⟩ w)
    (upd : (⟨2, ![B, C]⟩ : Shape).Idx → EReal) (n : Fin N) (c : Fin C) :
    Host.scatterAdd (F := Ideal) (φ := φ) (rowsDims N C B wf) x idx upd (ix2 n c)
      = x (ix2 n c) + ∑ b ∈ Finset.univ.filter (fun b : Fin B => (idx (ix2 b (0 : Fin 1))).toInt = (n.val : Int)),
          upd (ix2 b c) := by
  show x (ix2 n c) + ∑ j ∈ Finset.univ.filter
      (fun j => (rowsDims N C B wf).resultIdx? j idx = some (ix2 n c)), upd j = _
  congr 1
  refine Finset.sum_nbij' (fun j => (j 0 : Fin B)) (fun b => ix2 b c) ?_ ?_ ?_ ?_ ?_
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    exact Finset.mem_filter.mpr ⟨Finset.mem_univ _, h.1⟩
  · intro b hb
    exact Finset.mem_filter.mpr ⟨Finset.mem_univ _,
      (rows_lands_iff wf idx b c n c).mpr ⟨(Finset.mem_filter.mp hb).2, rfl⟩⟩
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show ix2 b c = ix2 b c'
    rw [h.2]
  · intro b _
    rfl
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show upd (ix2 b c') = upd (ix2 b c)
    rw [h.2]

end Rows

/-! ## Rows that are H × D blocks -/

/-- Operand [N, H, D], scatter indices [B, 1], updates [B, H, D]: update block b goes to the row idx[b] names. -/
abbrev rows3Dims (N H D B : Nat)
    (wf : ScatterDims.WF ⟨3, ![N, H, D]⟩ ⟨2, ![B, 1]⟩ ⟨3, ![B, H, D]⟩ [1, 2] [0] [0] 1) :
    ScatterDims ⟨3, ![N, H, D]⟩ ⟨2, ![B, 1]⟩ ⟨3, ![B, H, D]⟩ where
  updateWindowDims := [1, 2]
  insertedWindowDims := [0]
  scatterDimsToOperandDims := [0]
  indexVectorDim := 1
  wf := wf

section Rows3
variable {N H D B w : Nat} (wf : ScatterDims.WF ⟨3, ![N, H, D]⟩ ⟨2, ![B, 1]⟩ ⟨3, ![B, H, D]⟩ [1, 2] [0] [0] 1)

/-- The window of update (b, h', k') starts, on the row axis, at the word idx[b] read signed. -/
theorem rows3_start0 (idx : IVec ⟨2, ![B, 1]⟩ w) (b : Fin B) (h' : Fin H) (k' : Fin D) :
    (rows3Dims N H D B wf).start (ix3 b h' k') idx (⟨0, by decide⟩ : Fin 3) = (idx (ix2 b (0 : Fin 1))).toInt := by
  unfold ScatterDims.start
  rw [dif_pos (show (⟨0, by decide⟩ : Fin 3) ∈ (rows3Dims N H D B wf).scatterDimsToOperandDims from
    List.mem_singleton.mpr rfl)]
  have hsi : (rows3Dims N H D B wf).siIdx (ix3 b h' k')
      ⟨List.idxOf (⟨0, by decide⟩ : Fin 3) (rows3Dims N H D B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, h', k') on the second axis is h'. -/
theorem rows3_window1 (b : Fin B) (h' : Fin H) (k' : Fin D) :
    (rows3Dims N H D B wf).window (ix3 b h' k') (⟨1, by decide⟩ : Fin 3) = h'.val := by
  unfold ScatterDims.window
  rw [dif_pos ((mem_sKept _ _).mpr (by decide : ¬ (⟨1, by decide⟩ : Fin 3) ∈ ([0] : List (Fin 3))))]
  rfl

/-- The window coordinate of update (b, h', k') on the third axis is k'. -/
theorem rows3_window2 (b : Fin B) (h' : Fin H) (k' : Fin D) :
    (rows3Dims N H D B wf).window (ix3 b h' k') (⟨2, by decide⟩ : Fin 3) = k'.val := by
  unfold ScatterDims.window
  rw [dif_pos ((mem_sKept _ _).mpr (by decide : ¬ (⟨2, by decide⟩ : Fin 3) ∈ ([0] : List (Fin 3))))]
  rfl

/-- Update (b, h', k') lands on table entry (n, h, k) exactly when the word idx[b], read signed, is n, and
    (h', k') = (h, k). -/
theorem rows3_lands_iff (idx : IVec ⟨2, ![B, 1]⟩ w) (b : Fin B) (h' : Fin H) (k' : Fin D)
    (n : Fin N) (h : Fin H) (k : Fin D) :
    (rows3Dims N H D B wf).resultIdx? (ix3 b h' k') idx = some (ix3 n h k)
      ↔ (idx (ix2 b (0 : Fin 1))).toInt = (n.val : Int) ∧ h' = h ∧ k' = k := by
  rw [resultIdx?_eq_some_iff]
  have hw0 : (rows3Dims N H D B wf).window (ix3 b h' k') (⟨0, by decide⟩ : Fin 3) = 0 :=
    window_eq_zero _ _ _ (fun hm => ((mem_sKept _ _).mp hm) (List.mem_singleton.mpr rfl))
  have hs1 : (rows3Dims N H D B wf).start (ix3 b h' k') idx (⟨1, by decide⟩ : Fin 3) = 0 :=
    start_eq_zero _ _ _ _ (by decide : ¬ (⟨1, by decide⟩ : Fin 3) ∈ ([0] : List (Fin 3)))
  have hs2 : (rows3Dims N H D B wf).start (ix3 b h' k') idx (⟨2, by decide⟩ : Fin 3) = 0 :=
    start_eq_zero _ _ _ _ (by decide : ¬ (⟨2, by decide⟩ : Fin 3) ∈ ([0] : List (Fin 3)))
  constructor
  · intro hall
    have h0 := hall (⟨0, by decide⟩ : Fin 3)
    have h1 := hall (⟨1, by decide⟩ : Fin 3)
    have h2 := hall (⟨2, by decide⟩ : Fin 3)
    rw [rows3_start0, hw0] at h0
    rw [hs1, rows3_window1] at h1
    rw [hs2, rows3_window2] at h2
    refine ⟨?_, Fin.ext ?_, Fin.ext ?_⟩
    · have h0' : (idx (ix2 b (0 : Fin 1))).toInt + ((0 : Nat) : Int) = (n.val : Int) := h0
      omega
    · have h1' : (0 : Int) + (h'.val : Int) = (h.val : Int) := h1
      omega
    · have h2' : (0 : Int) + (k'.val : Int) = (k.val : Int) := h2
      omega
  · rintro ⟨h0, rfl, rfl⟩ a
    match a with
    | ⟨0, _⟩ =>
      rw [rows3_start0, hw0]
      show _ = (n.val : Int)
      omega
    | ⟨1, _⟩ =>
      rw [hs1, rows3_window1]
      show _ = (h'.val : Int)
      omega
    | ⟨2, _⟩ =>
      rw [hs2, rows3_window2]
      show _ = (k'.val : Int)
      omega

/-- Entry (n, h, k) of the scatter-add: the table's entry plus the sum, over the update blocks b whose word idx[b]
    read signed is n, of entry (h, k) of update block b. -/
theorem scatterAdd_rows3_apply {φ : FTy} (x : (⟨3, ![N, H, D]⟩ : Shape).Idx → EReal) (idx : IVec ⟨2, ![B, 1]⟩ w)
    (upd : (⟨3, ![B, H, D]⟩ : Shape).Idx → EReal) (n : Fin N) (h : Fin H) (k : Fin D) :
    Host.scatterAdd (F := Ideal) (φ := φ) (rows3Dims N H D B wf) x idx upd (ix3 n h k)
      = x (ix3 n h k) + ∑ b ∈ Finset.univ.filter (fun b : Fin B => (idx (ix2 b (0 : Fin 1))).toInt = (n.val : Int)),
          upd (ix3 b h k) := by
  show x (ix3 n h k) + ∑ j ∈ Finset.univ.filter
      (fun j => (rows3Dims N H D B wf).resultIdx? j idx = some (ix3 n h k)), upd j = _
  congr 1
  refine Finset.sum_nbij' (fun j => (j 0 : Fin B)) (fun b => ix3 b h k) ?_ ?_ ?_ ?_ ?_
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    exact Finset.mem_filter.mpr ⟨Finset.mem_univ _, hl.1⟩
  · intro b hb
    exact Finset.mem_filter.mpr ⟨Finset.mem_univ _,
      (rows3_lands_iff wf idx b h k n h k).mpr ⟨(Finset.mem_filter.mp hb).2, rfl, rfl⟩⟩
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show ix3 b h k = ix3 b h' k'
    rw [hl.2.1, hl.2.2]
  · intro b _
    rfl
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show upd (ix3 b h' k') = upd (ix3 b h k)
    rw [hl.2.1, hl.2.2]

end Rows3

end Idealize.ShloMosaic.ScatterAddRows

end
-- ==== Proof.LibScatterAddVec.lean ====
/-
  A scatter-add of numbers into a vector, read at an index.

  vec.at[idx].add(updates) for a vector of N numbers, B integer positions and B update numbers lowers to a
  stablehlo.scatter with an add body whose operand is [N], whose scatter indices are a [B, 1] array and whose updates
  are [B]. Update b is added into the entry whose position is the word idx[b] read as a SIGNED integer; the word is
  neither wrapped nor clamped, and an update whose word names no entry (negative, or N and above) is dropped. So entry
  n of the result is the vector's entry plus the sum of every update b with idx[b] = n as integers — the rank-1
  sibling of the scatter-add of rows into a table, on the same route: an update lands on n exactly when its start (the
  word, on the one axis) plus its window coordinate (0, the axis being inserted) is n.
-/
import Idealize.ShloMosaic.PureOps.Ideal
import Idealize.ShloMosaic.Lib.ValueIdx
import proofs.«133883_j77214922048048_2_alg».proof.Proof.LibScatterAddRows

noncomputable section

open scoped BigOperators

namespace Idealize.ShloMosaic.ScatterAddRows

open Idealize.ShloMosaic Idealize.ShloMosaic.ValueIdx

/-- Operand [N], scatter indices [B, 1], updates [B]: update b goes to the entry idx[b] names. -/
abbrev vecDims (N B : Nat)
    (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

section Vec
variable {N B w : Nat} (wf : ScatterDims.WF ⟨1, ![N]⟩ ⟨2, ![B, 1]⟩ ⟨1, ![B]⟩ [] [0] [0] 1)

/-- The window of update b starts at the word idx[b] read signed. -/
theorem vec_start0 (idx : IVec ⟨2, ![B, 1]⟩ w) (b : Fin B) :
    (vecDims N B wf).start (ix1 b) idx (⟨0, by decide⟩ : Fin 1) = (idx (ix2 b (0 : Fin 1))).toInt := by
  unfold ScatterDims.start
  rw [dif_pos (show (⟨0, by decide⟩ : Fin 1) ∈ (vecDims N B wf).scatterDimsToOperandDims from
    List.mem_singleton.mpr rfl)]
  have hsi : (vecDims N B wf).siIdx (ix1 b)
      ⟨List.idxOf (⟨0, by decide⟩ : Fin 1) (vecDims N B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- Update b lands on entry n exactly when the word idx[b], read signed, is n. -/
theorem vec_lands_iff (idx : IVec ⟨2, ![B, 1]⟩ w) (b : Fin B) (n : Fin N) :
    (vecDims N B wf).resultIdx? (ix1 b) idx = some (ix1 n)
      ↔ (idx (ix2 b (0 : Fin 1))).toInt = (n.val : Int) := by
  rw [resultIdx?_eq_some_iff]
  have hw0 : (vecDims N B wf).window (ix1 b) (⟨0, by decide⟩ : Fin 1) = 0 :=
    window_eq_zero _ _ _ (fun h => ((mem_sKept _ _).mp h) (List.mem_singleton.mpr rfl))
  constructor
  · intro h
    have h0 := h (⟨0, by decide⟩ : Fin 1)
    rw [vec_start0, hw0] at h0
    have h0' : (idx (ix2 b (0 : Fin 1))).toInt + ((0 : Nat) : Int) = (n.val : Int) := h0
    omega
  · intro h0 a
    match a with
    | ⟨0, _⟩ =>
      rw [vec_start0, hw0]
      show _ = (n.val : Int)
      omega

/-- Entry n of the scatter-add: the vector's entry plus the sum, over the updates b whose word idx[b] read signed is
    n, of update b. -/
theorem scatterAdd_vec_apply {φ : FTy} (x : (⟨1, ![N]⟩ : Shape).Idx → EReal) (idx : IVec ⟨2, ![B, 1]⟩ w)
    (upd : (⟨1, ![B]⟩ : Shape).Idx → EReal) (n : Fin N) :
    Host.scatterAdd (F := Ideal) (φ := φ) (vecDims N B wf) x idx upd (ix1 n)
      = x (ix1 n) + ∑ b ∈ Finset.univ.filter (fun b : Fin B => (idx (ix2 b (0 : Fin 1))).toInt = (n.val : Int)),
          upd (ix1 b) := by
  show x (ix1 n) + ∑ j ∈ Finset.univ.filter
      (fun j => (vecDims N B wf).resultIdx? j idx = some (ix1 n)), upd j = _
  congr 1
  refine Finset.sum_nbij' (fun j => (j 0 : Fin B)) (fun b => ix1 b) ?_ ?_ ?_ ?_ ?_
  · intro j hj
    obtain ⟨b, rfl⟩ : ∃ b : Fin B, j = ix1 b := ⟨j 0, eq_ix1 j⟩
    exact Finset.mem_filter.mpr ⟨Finset.mem_univ _, (vec_lands_iff wf idx b n).mp (Finset.mem_filter.mp hj).2⟩
  · intro b hb
    exact Finset.mem_filter.mpr ⟨Finset.mem_univ _, (vec_lands_iff wf idx b n).mpr (Finset.mem_filter.mp hb).2⟩
  · intro j _
    exact (eq_ix1 j).symm
  · intro b _
    rfl
  · intro j _
    exact congrArg upd (eq_ix1 j)

end Vec

end Idealize.ShloMosaic.ScatterAddRows

end
-- ==== Proof.LibClampedMean.lean ====
/-
  A neighbourhood mean written two ways.

  One program multiplies each row of the summed messages by the reciprocal `1 / max (cnt, 1)` of its clamped
  in-degree, computed once as a column; the other divides the row by `max (cnt, 1)` directly.  Over the extended
  reals a quotient by a divisor that is not zero IS the product with the divisor's inverse, and `max (cnt, 1)` is at
  least one whatever `cnt` is, so the two agree entry by entry with no assumption on the summed messages or on the count.
-/
import Idealize.ShloMosaic.Lib.IdealHost
import Idealize.ShloMosaic.Lib.Pipeline.Value

noncomputable section

namespace Idealize.ShloMosaic.ClampedMean

open Idealize.ShloMosaic Idealize.ShloMosaic.ValueIdx

/-- The word of `1.0` laid over any array reads the real one everywhere. -/
theorem ones_apply {T : Shape} (h : (⟨0, ![]⟩ : Shape).BroadcastsInDim T ![]) (i : T.Idx) :
    broadcastInDim T ![] h (constant (F := Ideal) ⟨0, ![]⟩ .f32 0x3F800000#32) i = 1 := by
  rw [broadcastInDim_scalar_apply, constant_apply, Ideal.ofBits_one_f32]

/-- A column `[E, 1]` laid along `Q` columns reads, at `(p, q)`, the column's entry `p`. -/
theorem column_apply {α : Type} {E Q : ℕ} (v : (⟨2, ![E, 1]⟩ : Shape).Idx → α)
    (h : (⟨2, ![E, 1]⟩ : Shape).BroadcastsInDim ⟨2, ![E, Q]⟩ ![0, 1]) (p : Fin E) (q : Fin Q) :
    broadcastInDim ⟨2, ![E, Q]⟩ ![0, 1] h v (ix2 p q) = v (ix2 p (0 : Fin 1)) := by
  have hp := p.isLt
  exact broadcastInDim_apply ![0, 1] h v (ix2 p q) (ix2 p (0 : Fin 1)) (fun a => by
    match a with
    | ⟨0, _⟩ => show p.val = if E = 1 then 0 else p.val; split <;> omega
    | ⟨1, _⟩ => rfl)

/-- Rows scaled by the reciprocal of the clamped count are the rows divided by the clamped count. -/
theorem scaled_eq_quotient {E Q : ℕ} (s : FVec Ideal ⟨2, ![E, Q]⟩ .f32) (cnt one : FVec Ideal ⟨2, ![E, 1]⟩ .f32)
    (hone : ∀ i, one i = 1) (h : (⟨2, ![E, 1]⟩ : Shape).BroadcastsInDim ⟨2, ![E, Q]⟩ ![0, 1]) :
    mulf s (broadcastInDim ⟨2, ![E, Q]⟩ ![0, 1] h (Host.divf one (maximumf cnt one)))
      = Host.divf s (broadcastInDim ⟨2, ![E, Q]⟩ ![0, 1] h (maximumf cnt one)) := by
  funext i
  obtain ⟨p, q, rfl⟩ : ∃ (p : Fin E) (q : Fin Q), i = ix2 p q := ⟨i 0, i 1, eq_ix2 i⟩
  rw [mulf_apply, hostDivf_apply, column_apply, column_apply, hostDivf_apply, maximumf_apply, hone]
  exact Ideal.mul_one_div (ne_of_gt (lt_of_lt_of_le zero_lt_one (le_max_right _ _)))

end Idealize.ShloMosaic.ClampedMean

end
-- ==== Proof.HostArrays.lean ====
/-
  The arrays the host builds from the edge list, and what each holds at an entry.

  Every edge e has a source word and a destination word. A gather reads, for edge e, the row of the table its source
  names: a negative word has the number of nodes added first, and the result, read as a signed integer, is clamped
  into the table — so every edge names some row, `rowOf e`. A scatter-add adds the update of edge e into the row its
  destination word names when that word, read as a signed integer, is a row number, and drops it otherwise — so row
  n receives the updates of the edges `inE n`. Hence, at node n:

      neighbour sum of X at (n, j) = 0 + Σ_{e ∈ inE n} X(rowOf e, j),      degree(n) = 0 + Σ_{e ∈ inE n} 1,
      inv(n) = 1 / max(degree(n), 1).
-/
import proofs.«133883_j77214922048048_2_alg».proof.KernelIdeal
import proofs.«133883_j77214922048048_2_alg».proof.Proof.Gen.KernelIdeal
import proofs.«133883_j77214922048048_2_alg».proof.Proof.LibGatherRows
import proofs.«133883_j77214922048048_2_alg».proof.Proof.LibScatterAddRows
import proofs.«133883_j77214922048048_2_alg».proof.Proof.LibScatterAddVec
import proofs.«133883_j77214922048048_2_alg».proof.Proof.LibColumn
import proofs.«133883_j77214922048048_2_alg».proof.Proof.LibClampedMean
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostArrays

open Cert.KernelIdeal Cert.KernelIdeal.Facts₀ Cert.KernelIdeal.Facts
open Idealize.ShloMosaic Idealize.ShloMosaic.ValueIdx
open Idealize.ShloMosaic.GatherRows Idealize.ShloMosaic.ScatterAddRows Idealize.ShloMosaic.Column Idealize.ShloMosaic.ClampedMean
open scoped BigOperators

/-! ## The host-side arrays, named -/

/-- Row 0 of the edge list: the source words. -/
def srcVec (ei : S2x800000.Idx → BitVec 32) : S800000.Idx → BitVec 32 :=
  shapeCast S800000 (extractStridedSlice S1x800000 ![0, 0] ei slices_S2x800000_S1x800000_0_0) shapeCasts_S1x800000_S800000
/-- Row 1 of the edge list: the destination words. -/
def dstVec (ei : S2x800000.Idx → BitVec 32) : S800000.Idx → BitVec 32 :=
  shapeCast S800000 (extractStridedSlice S1x800000 ![1, 0] ei slices_S2x800000_S1x800000_1_0) shapeCasts_S1x800000_S800000
/-- The source column a gather reads: a negative word has the number of nodes added first. -/
def srcColOf (sv : S800000.Idx → BitVec 32) : S800000x1.Idx → BitVec 32 :=
  broadcastInDim S800000x1 ![0] bcast_S800000_S800000x1_0
    (select (cmpi .slt sv (broadcastInDim S800000 ![] bcast_S_S800000 (constantI S_ 32 0#32)))
      (addi sv (broadcastInDim S800000 ![] bcast_S_S800000 (constantI S_ 32 50000#32))) sv)
/-- The destination column a scatter-add writes through. -/
def dstColOf (dv : S800000.Idx → BitVec 32) : S800000x1.Idx → BitVec 32 :=
  broadcastInDim S800000x1 ![0] bcast_S800000_S800000x1_0 dv
/-- The in-degree of every node: ones scatter-added by destination into zeros. -/
def degVec (dv : S800000.Idx → BitVec 32) : S50000.Idx → EReal :=
  Host.scatterAdd (F := Ideal) (φ := .f32) scatter_S50000_S800000x1_S800000_n_0_0_1
    (broadcastInDim S50000 ![] bcast_S_S50000 (constant (F := Ideal) S_ .f32 0x00000000#32)) (dstColOf dv)
    (broadcastInDim S800000 ![] bcast_S_S800000 (constant (F := Ideal) S_ .f32 0x3F800000#32))
/-- The column 1 / max(degree, 1). -/
def invCol (dv : S800000.Idx → BitVec 32) : S50000x1.Idx → EReal :=
  Host.divf (F := Ideal) (φ := .f32) (broadcastInDim S50000x1 ![] bcast_S_S50000x1 (constant (F := Ideal) S_ .f32 0x3F800000#32))
    (maximumf (F := Ideal) (φ := .f32) (broadcastInDim S50000x1 ![0] bcast_S50000_S50000x1_0 (degVec dv))
      (broadcastInDim S50000x1 ![] bcast_S_S50000x1 (constant (F := Ideal) S_ .f32 0x3F800000#32)))
/-- Neighbour sums of 128-wide rows: source rows gathered, then scatter-added by destination into zeros. -/
def nbrSum128 (X : S50000x128.Idx → EReal) (sv dv : S800000.Idx → BitVec 32) : S50000x128.Idx → EReal :=
  Host.scatterAdd (F := Ideal) (φ := .f32) scatter_S50000x128_S800000x1_S800000x128_1_0_0_1
    (broadcastInDim S50000x128 ![] bcast_S_S50000x128 (constant (F := Ideal) S_ .f32 0x00000000#32)) (dstColOf dv)
    (Host.gather gather_S50000x128_S800000x1_S800000x128_1_0_n_n_0_1_1128 X (srcColOf sv))
/-- Neighbour sums of 64-wide rows. -/
def nbrSum64 (X : S50000x64.Idx → EReal) (sv dv : S800000.Idx → BitVec 32) : S50000x64.Idx → EReal :=
  Host.scatterAdd (F := Ideal) (φ := .f32) scatter_S50000x64_S800000x1_S800000x64_1_0_0_1
    (broadcastInDim S50000x64 ![] bcast_S_S50000x64 (constant (F := Ideal) S_ .f32 0x00000000#32)) (dstColOf dv)
    (Host.gather gather_S50000x64_S800000x1_S800000x64_1_0_n_n_0_1_164 X (srcColOf sv))
/-- The biases as one row each. -/
def b1Row (b1 : S128.Idx → EReal) : S1x128.Idx → EReal := shapeCast S1x128 b1 shapeCasts_S128_S1x128
def b2Row (b2 : S64.Idx → EReal) : S1x64.Idx → EReal := shapeCast S1x64 b2 shapeCasts_S64_S1x64

/-! ## Read at an entry -/

/-- The row of a 50000-row table edge `e` reads. -/
def rowOf (sv : S800000.Idx → BitVec 32) (e : Fin 800000) : Fin 50000 :=
  ⟨clampRow 50000 (srcColOf sv (ix2 e (0 : Fin 1))), clampRow_lt (by norm_num) _⟩
/-- The edges whose update lands on row `n`. -/
def inE (dv : S800000.Idx → BitVec 32) (n : Fin 50000) : Finset (Fin 800000) :=
  Finset.univ.filter fun e : Fin 800000 => (dstColOf dv (ix2 e (0 : Fin 1))).toInt = (n.val : Int)

/-- The zero the scatter-adds start from reads 0 at every index. -/
theorem zeros_apply {T : Shape} (h : (⟨0, ![]⟩ : Shape).BroadcastsInDim T ![]) (i : T.Idx) :
    broadcastInDim T ![] h (constant (F := Ideal) ⟨0, ![]⟩ .f32 0x00000000#32) i = 0 := by
  rw [ValueIdx.broadcastInDim_scalar_apply]
  exact Ideal.ofBits_zero_f32

theorem nbrSum128_apply (X : S50000x128.Idx → EReal) (sv dv : S800000.Idx → BitVec 32) (n : Fin 50000) (j : Fin 128) :
    nbrSum128 X sv dv (ix2 n j) = 0 + ∑ e ∈ inE dv n, X (ix2 (rowOf sv e) j) := by
  unfold nbrSum128
  refine (scatterAdd_rows_apply (N := 50000) (C := 128) (B := 800000)
    scatter_S50000x128_S800000x1_S800000x128_1_0_0_1_wf _ (dstColOf dv) _ n j).trans ?_
  refine congrArg₂ (· + ·) (zeros_apply _ _) (Finset.sum_congr rfl fun e _ => ?_)
  exact gather_rows_apply (N := 50000) (C := 128) (B := 800000) (by norm_num)
    gather_S50000x128_S800000x1_S800000x128_1_0_n_n_0_1_1128_wf X (srcColOf sv) e j

theorem nbrSum64_apply (X : S50000x64.Idx → EReal) (sv dv : S800000.Idx → BitVec 32) (n : Fin 50000) (j : Fin 64) :
    nbrSum64 X sv dv (ix2 n j) = 0 + ∑ e ∈ inE dv n, X (ix2 (rowOf sv e) j) := by
  unfold nbrSum64
  refine (scatterAdd_rows_apply (N := 50000) (C := 64) (B := 800000)
    scatter_S50000x64_S800000x1_S800000x64_1_0_0_1_wf _ (dstColOf dv) _ n j).trans ?_
  refine congrArg₂ (· + ·) (zeros_apply _ _) (Finset.sum_congr rfl fun e _ => ?_)
  exact gather_rows_apply (N := 50000) (C := 64) (B := 800000) (by norm_num)
    gather_S50000x64_S800000x1_S800000x64_1_0_n_n_0_1_164_wf X (srcColOf sv) e j

theorem degVec_apply (dv : S800000.Idx → BitVec 32) (n : Fin 50000) :
    degVec dv (ix1 n) = 0 + ∑ e ∈ inE dv n, (1 : EReal) := by
  unfold degVec
  refine (scatterAdd_vec_apply (N := 50000) (B := 800000)
    scatter_S50000_S800000x1_S800000_n_0_0_1_wf _ (dstColOf dv) _ n).trans ?_
  exact congrArg₂ (· + ·) (zeros_apply _ _) (Finset.sum_congr rfl fun e _ => ones_apply _ _)

theorem invCol_apply (dv : S800000.Idx → BitVec 32) (n : Fin 50000) (u : Fin 1) :
    invCol dv (ix2 n u) = Ideal.div 1 (max (degVec dv (ix1 n)) 1) := by
  unfold invCol
  rw [hostDivf_apply, maximumf_apply, ones_apply, broadcastInDim_a_a1_apply]

/-- A bias vector made one row reads the vector's entry. -/
theorem b1Row_apply (b1 : S128.Idx → EReal) (q : Fin 128) : b1Row b1 (ix2 (0 : Fin 1) q) = b1 (ix1 q) := by
  unfold b1Row
  exact shapeCast_a_1a_apply b1 shapeCasts_S128_S1x128 (0 : Fin 1) q
theorem b2Row_apply (b2 : S64.Idx → EReal) (q : Fin 64) : b2Row b2 (ix2 (0 : Fin 1) q) = b2 (ix1 q) := by
  unfold b2Row
  exact shapeCast_a_1a_apply b2 shapeCasts_S64_S1x64 (0 : Fin 1) q

end Cert.KernelIdeal.HostArrays

end
-- ==== Proof.LayerOne.lean ====
/-
  The first pallas_call's body at one entry. On a tile of 5000 nodes the body forms, for node p and channel q,

      h(p, q) = max( ( Σ_j (agg(p, j) · inv(p)) · W1_l(j, q) + Σ_j x(p, j) · W1_r(j, q) ) + b1(q), 0 )

  — the neighbour sum scaled by the reciprocal of the clamped count, two matrix products into zero accumulators, the
  bias row laid along the rows, the clamp at zero — and its second output is the projection
  p(p, g) = Σ_k h(p, k) · W2_l(k, g). On the extended reals a change of float format is the identity, so the
  bf16 casts in front of each product disappear.
-/
import proofs.«133883_j77214922048048_2_alg».proof.Proof.Gen.KernelIdeal.Frame
import proofs.«133883_j77214922048048_2_alg».proof.Proof.LibDenseBlock
import proofs.«133883_j77214922048048_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LayerOne

open Cert.KernelIdeal Cert.KernelIdeal.Gen
open Idealize.ShloMosaic Idealize.ShloMosaic.TcCoe Idealize.ShloMosaic.ValueIdx Idealize.SL.Sem
open scoped BigOperators

open Idealize.ShloMosaic.DenseBlock Idealize.ShloMosaic.Column

/-- The hidden layer at node `p`, channel `q`, from the node's neighbour sums, its reciprocal count, its features, the
    two weight matrices and the bias row. -/
def hiddenAt {K : ℕ} (a : (⟨2, ![K, 128]⟩ : Shape).Idx → EReal) (iv : (⟨2, ![K, 1]⟩ : Shape).Idx → EReal)
    (x : (⟨2, ![K, 128]⟩ : Shape).Idx → EReal) (wl wr : (⟨2, ![128, 128]⟩ : Shape).Idx → EReal)
    (b : (⟨2, ![1, 128]⟩ : Shape).Idx → EReal) (p : Fin K) (q : Fin 128) : EReal :=
  max (((∑ j : Fin 128, (a (ix2 p j) * iv (ix2 p (0 : Fin 1))) * wl (ix2 j q))
      + ∑ j : Fin 128, x (ix2 p j) * wr (ix2 j q)) + b (ix2 (0 : Fin 1) q)) 0

/-- The body's first stored value at `(p, q)` is the hidden layer there. -/
theorem pay1_apply (a : Vec Ideal S5000x128 .f32) (iv : Vec Ideal S5000x1 .f32) (x : Vec Ideal S5000x128 .f32)
    (wl wr : Vec Ideal S128x128 .f32) (b : Vec Ideal S1x128 .f32) (p : Fin 5000) (q : Fin 128) :
    k0_pay1 (F := Ideal) a iv x wl wr b (ix2 p q) = hiddenAt a iv x wl wr b p q := by
  unfold k0_pay1 hiddenAt
  rw [shapeCast_self, shapeCast_self, shapeCast_self]
  have e1 := matmul_zero_apply (K := 5000) (N := 128) (Q := 128) dot_S5000x128_S128x128_S5000x128_1_0_0_1_n_n_wf
    (φ₁ := .bf16) (φ₂ := .bf16) (fun i => a i * broadcastTo S5000x128 iv broadcasts_S5000x1_S5000x128 i) wl p q
  have e2 := matmul_zero_apply (K := 5000) (N := 128) (Q := 128) dot_S5000x128_S128x128_S5000x128_1_0_0_1_n_n_wf
    (φ₁ := .bf16) (φ₂ := .bf16) x wr p q
  have e3 := broadcastTo_1b_ab_apply (a := 5000) (b := 128) b broadcasts_S1x128_S5000x128 p q
  refine congrArg₂ max (congrArg₂ (· + ·) (congrArg₂ (· + ·) (e1.trans ?_) e2) e3) ?_
  · refine Finset.sum_congr rfl fun j _ => ?_
    rw [broadcastTo_a1_ab_apply (a := 5000) (b := 128) iv broadcasts_S5000x1_S5000x128 p j]
  · show Ideal.ofBits .f32 0x00000000#32 = 0
    exact Ideal.ofBits_zero_f32

/-- The body's second stored value at `(p, g)` is the hidden layer's row `p` against column `g` of the second
    layer's neighbour weights. -/
theorem pay2_apply (a : Vec Ideal S5000x128 .f32) (iv : Vec Ideal S5000x1 .f32) (x : Vec Ideal S5000x128 .f32)
    (wl wr : Vec Ideal S128x128 .f32) (b : Vec Ideal S1x128 .f32) (w2 : Vec Ideal S128x64 .f32) (p : Fin 5000) (g : Fin 64) :
    k0_pay2 (F := Ideal) a iv x wl wr b w2 (ix2 p g) = ∑ k : Fin 128, hiddenAt a iv x wl wr b p k * w2 (ix2 k g) := by
  unfold k0_pay2
  have e := matmul_zero_apply (K := 5000) (N := 128) (Q := 64) dot_S5000x128_S128x64_S5000x64_1_0_0_1_n_n_wf
    (φ₁ := .bf16) (φ₂ := .bf16) (k0_pay1 (F := Ideal) a iv x wl wr b) w2 p g
  refine e.trans (Finset.sum_congr rfl fun k _ => ?_)
  rw [pay1_apply]

end Cert.KernelIdeal.LayerOne

end
-- ==== Proof.RegionOne.lean ====
/-
  The first pallas_call over the whole graph. The grid has ten points; point t works on nodes 5000·t … 5000·t + 4999:
  the neighbour sums, the reciprocal counts and the features are staged a tile of rows at a time, the two weight
  matrices, the bias row and the second layer's neighbour weights stay resident, and the two results are written
  back a tile of rows at a time. The tiles do not overlap and together are all 50000 nodes, so after the call the
  first result is the hidden layer of every node and the second its projection — each one function of the arrays
  the call was entered with, index by index.
-/
import proofs.«133883_j77214922048048_2_alg».proof.Proof.Gen.KernelIdeal.Frame
import proofs.«133883_j77214922048048_2_alg».proof.Proof.LibDenseBlock
import proofs.«133883_j77214922048048_2_alg».proof.Proof.LibColumn
import proofs.«133883_j77214922048048_2_alg».proof.Proof.LayerOne
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionOne

open Cert.KernelIdeal Cert.KernelIdeal.Gen
open Idealize.ShloMosaic Idealize.ShloMosaic.TcCoe Idealize.ShloMosaic.ValueIdx Idealize.SL.Sem
open scoped BigOperators

open Cert.KernelIdeal.LayerOne
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Node `p` of tile `t`. -/
def node (t : ℕ) (ht : t < 10) (p : Fin 5000) : Fin 50000 := ⟨t * 5000 + p.val, by have := p.isLt; omega⟩

/-- The index maps over the ten grid points: a row-tiled window's block index is the point's number on the node axis
    and 0 on the other; a resident window's block index is (0, 0). Decided once over the grid. -/
theorem idx_facts : ∀ t : Fin cfg0.N, t.val < 10
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- Window 0's block at point `t` is rows `5000·t … 5000·t + 4999` of its array. -/
theorem blk_0 (c : Dev nD) (t : Fin cfg0.N) (p : Fin 5000) (j : Fin 128) :
    iblk0 V c 0 t (ix2 p j) = V c main_v22 (ix2 (node t.val (idx_facts t).1 p) j) := by
  have e0 := (idx_facts t).2.1
  have e1 := (idx_facts t).2.2.1
  show V c main_v22 (((cfg0.win 0).blk t).view.emb (ix2 p j)) = _
  refine congrArg (V c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * j.val = j.val; omega

/-- Window 1's block at point `t` is rows `5000·t … 5000·t + 4999` of its array. -/
theorem blk_1 (c : Dev nD) (t : Fin cfg0.N) (p : Fin 5000) (j : Fin 1) :
    iblk0 V c 1 t (ix2 p j) = V c main_v12 (ix2 (node t.val (idx_facts t).1 p) j) := by
  have e0 := (idx_facts t).2.2.2.1
  have e1 := (idx_facts t).2.2.2.2.1
  show V c main_v12 (((cfg0.win 1).blk t).view.emb (ix2 p j)) = _
  refine congrArg (V c main_v12) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * j.val = j.val; omega

/-- Window 2's block at point `t` is rows `5000·t … 5000·t + 4999` of its array. -/
theorem blk_2 (c : Dev nD) (t : Fin cfg0.N) (p : Fin 5000) (j : Fin 128) :
    iblk0 V c 2 t (ix2 p j) = V c main_arg0 (ix2 (node t.val (idx_facts t).1 p) j) := by
  have e0 := (idx_facts t).2.2.2.2.2.1
  have e1 := (idx_facts t).2.2.2.2.2.2.1
  show V c main_arg0 (((cfg0.win 2).blk t).view.emb (ix2 p j)) = _
  refine congrArg (V c main_arg0) (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * j.val = j.val; omega

/-- Window 3 is resident: its one block is its whole array. -/
theorem blk_3 (c : Dev nD) (t : Fin cfg0.N) : iblk0 V c 3 t = V c main_arg2 := by
  have e0 := (idx_facts t).2.2.2.2.2.2.2.1
  have e1 := (idx_facts t).2.2.2.2.2.2.2.2.1
  funext y
  obtain ⟨p, j, rfl⟩ : ∃ (p : Fin 128) (j : Fin 128), y = ix2 p j := ⟨y 0, y 1, eq_ix2 y⟩
  show V c main_arg2 (((cfg0.win 3).blk t).view.emb (ix2 p j)) = _
  refine congrArg (V c main_arg2) (funext fun a => Fin.ext ?_)
  match a with
  | ⟨0, _⟩ => show win0_3.index t (0 : Fin 2) * 128 + 1 * p.val = p.val; omega
  | ⟨1, _⟩ => show win0_3.index t (1 : Fin 2) * 128 + 1 * j.val = j.val; omega

/-- Window 4 is resident: its one block is its whole array. -/
theorem blk_4 (c : Dev nD) (t : Fin cfg0.N) : iblk0 V c 4 t = V c main_arg3 := by
  have e0 := (idx_facts t).2.2.2.2.2.2.2.2.2.1
  have e1 := (idx_facts t).2.2.2.2.2.2.2.2.2.2.1
  funext y
  obtain ⟨p, j, rfl⟩ : ∃ (p : Fin 128) (j : Fin 128), y = ix2 p j := ⟨y 0, y 1, eq_ix2 y⟩
  show V c main_arg3 (((cfg0.win 4).blk t).view.emb (ix2 p j)) = _
  refine congrArg (V c main_arg3) (funext fun a => Fin.ext ?_)
  match a with
  | ⟨0, _⟩ => show win0_4.index t (0 : Fin 2) * 128 + 1 * p.val = p.val; omega
  | ⟨1, _⟩ => show win0_4.index t (1 : Fin 2) * 128 + 1 * j.val = j.val; omega

/-- Window 5 is resident: its one block is its whole array. -/
theorem blk_5 (c : Dev nD) (t : Fin cfg0.N) : iblk0 V c 5 t = V c main_v23 := by
  have e0 := (idx_facts t).2.2.2.2.2.2.2.2.2.2.2.1
  have e1 := (idx_facts t).2.2.2.2.2.2.2.2.2.2.2.2.1
  funext y
  obtain ⟨p, j, rfl⟩ : ∃ (p : Fin 1) (j : Fin 128), y = ix2 p j := ⟨y 0, y 1, eq_ix2 y⟩
  show V c main_v23 (((cfg0.win 5).blk t).view.emb (ix2 p j)) = _
  refine congrArg (V c main_v23) (funext fun a => Fin.ext ?_)
  match a with
  | ⟨0, _⟩ => show win0_5.index t (0 : Fin 2) * 1 + 1 * p.val = p.val; omega
  | ⟨1, _⟩ => show win0_5.index t (1 : Fin 2) * 128 + 1 * j.val = j.val; omega

/-- Window 6 is resident: its one block is its whole array. -/
theorem blk_6 (c : Dev nD) (t : Fin cfg0.N) : iblk0 V c 6 t = V c main_arg5 := by
  have e0 := (idx_facts t).2.2.2.2.2.2.2.2.2.2.2.2.2.1
  have e1 := (idx_facts t).2.2.2.2.2.2.2.2.2.2.2.2.2.2.1
  funext y
  obtain ⟨p, j, rfl⟩ : ∃ (p : Fin 128) (j : Fin 64), y = ix2 p j := ⟨y 0, y 1, eq_ix2 y⟩
  show V c main_arg5 (((cfg0.win 6).blk t).view.emb (ix2 p j)) = _
  refine congrArg (V c main_arg5) (funext fun a => Fin.ext ?_)
  match a with
  | ⟨0, _⟩ => show win0_6.index t (0 : Fin 2) * 128 + 1 * p.val = p.val; omega
  | ⟨1, _⟩ => show win0_6.index t (1 : Fin 2) * 64 + 1 * j.val = j.val; omega

/-- Every tile of rows is some grid point's. -/
theorem idx_onto7 : ∀ q0 : Fin 10, ∃ t : Fin cfg0.N, win0_7.index t = ![q0.val, 0] :=
  (by decide +kernel : ∀ q0 : Fin 10, ∃ t : Fin grid0.N, win0_7.index t = ![q0.val, 0])
theorem idx_onto8 : ∀ q0 : Fin 10, ∃ t : Fin cfg0.N, win0_8.index t = ![q0.val, 0] :=
  (by decide +kernel : ∀ q0 : Fin 10, ∃ t : Fin grid0.N, win0_8.index t = ![q0.val, 0])

/-- The hidden layer of every node, as one function of the six arrays the body reads. -/
def hiddenArr (a : S50000x128.Idx → EReal) (iv : S50000x1.Idx → EReal) (x : S50000x128.Idx → EReal)
    (wl wr : S128x128.Idx → EReal) (b : S1x128.Idx → EReal) : S50000x128.Idx → EReal :=
  fun i => hiddenAt a iv x wl wr b (i 0) (i 1)

/-- The projection of every node's hidden layer by the second layer's neighbour weights. -/
def projArr (a : S50000x128.Idx → EReal) (iv : S50000x1.Idx → EReal) (x : S50000x128.Idx → EReal)
    (wl wr : S128x128.Idx → EReal) (b : S1x128.Idx → EReal) (w2 : S128x64.Idx → EReal) : S50000x64.Idx → EReal :=
  fun i => ∑ k : Fin 128, hiddenAt a iv x wl wr b (i 0) k * w2 (ix2 k (i 1))

/-- On a tile whose rows are rows of the whole arrays, the tile's hidden layer is the whole arrays' hidden layer at
    those nodes: the formula reads only the node's own row. -/
theorem hiddenAt_tile (T : ℕ) (hT : T < 10) (A0 : S5000x128.Idx → EReal) (A1 : S5000x1.Idx → EReal) (A2 : S5000x128.Idx → EReal)
    (W0 : S50000x128.Idx → EReal) (W1 : S50000x1.Idx → EReal) (W2 : S50000x128.Idx → EReal)
    (wl wr : S128x128.Idx → EReal) (b : S1x128.Idx → EReal)
    (h0 : ∀ (p : Fin 5000) (j : Fin 128), A0 (ix2 p j) = W0 (ix2 (node T hT p) j))
    (h1 : ∀ (p : Fin 5000) (j : Fin 1), A1 (ix2 p j) = W1 (ix2 (node T hT p) j))
    (h2 : ∀ (p : Fin 5000) (j : Fin 128), A2 (ix2 p j) = W2 (ix2 (node T hT p) j))
    (p : Fin 5000) (q : Fin 128) :
    hiddenAt A0 A1 A2 wl wr b p q = hiddenAt W0 W1 W2 wl wr b (node T hT p) q := by
  unfold hiddenAt
  simp only [h0, h1, h2]

/-- What point `t` writes back through the first output window is tile `t` of the hidden layer. -/
theorem flushed7 (c : Dev nD) (t : Fin cfg0.N) :
    (dat0 V c).flushed 7 t = ((cfg0.win 7).blk t).view.read (Elt Ideal)
      (hiddenArr (V c main_v22) (V c main_v12) (V c main_arg0) (V c main_arg2) (V c main_arg3) (V c main_v23)) := by
  show (cfg0.win 7).cut (grid0.coords t) ((dat0 V c).after 7 t) = _
  rw [after0_7]
  unfold out0_7
  rw [View.canon_unit_zero hz]
  simp only [View.ld_unit_zero (S := S5000x128) hz, View.ld_unit_zero (S := S5000x1) hz,
    View.ld_unit_zero (S := S128x128) hz, View.ld_unit_zero (S := S1x128) hz]
  rw [blk_3 V c t, blk_4 V c t, blk_5 V c t]
  funext y
  obtain ⟨p, q, rfl⟩ : ∃ (p : Fin 5000) (q : Fin 128), y = ix2 p q := ⟨y 0, y 1, eq_ix2 y⟩
  have e0 := (idx_facts t).2.2.2.2.2.2.2.2.2.2.2.2.2.2.2.1
  have e1 := (idx_facts t).2.2.2.2.2.2.2.2.2.2.2.2.2.2.2.2.1
  have hemb : ((cfg0.win 7).blk t).view.emb (ix2 p q) = ix2 (node t.val (idx_facts t).1 p) q :=
    funext fun a => Fin.ext (by
      match a with
      | ⟨0, _⟩ => show win0_7.index t (0 : Fin 2) * 5000 + 1 * p.val = t.val * 5000 + p.val; omega
      | ⟨1, _⟩ => show win0_7.index t (1 : Fin 2) * 128 + 1 * q.val = q.val; omega)
  refine (pay1_apply _ _ _ _ _ _ p q).trans ?_
  refine (hiddenAt_tile t.val (idx_facts t).1 _ _ _ (V c main_v22) (V c main_v12) (V c main_arg0) _ _ _
    (blk_0 V c t) (blk_1 V c t) (blk_2 V c t) p q).trans ?_
  show _ = hiddenArr _ _ _ _ _ _ (((cfg0.win 7).blk t).view.emb (ix2 p q))
  rw [hemb]
  rfl

/-- What point `t` writes back through the second output window is tile `t` of the projection. -/
theorem flushed8 (c : Dev nD) (t : Fin cfg0.N) :
    (dat0 V c).flushed 8 t = ((cfg0.win 8).blk t).view.read (Elt Ideal)
      (projArr (V c main_v22) (V c main_v12) (V c main_arg0) (V c main_arg2) (V c main_arg3) (V c main_v23) (V c main_arg5)) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x1) hz,
    View.ld_unit_zero (S := S128x128) hz, View.ld_unit_zero (S := S1x128) hz, View.ld_unit_zero (S := S128x64) hz]
  rw [blk_3 V c t, blk_4 V c t, blk_5 V c t, blk_6 V c t]
  funext y
  obtain ⟨p, g, rfl⟩ : ∃ (p : Fin 5000) (g : Fin 64), y = ix2 p g := ⟨y 0, y 1, eq_ix2 y⟩
  have e0 := (idx_facts t).2.2.2.2.2.2.2.2.2.2.2.2.2.2.2.2.2.1
  have e1 := (idx_facts t).2.2.2.2.2.2.2.2.2.2.2.2.2.2.2.2.2.2
  have hemb : ((cfg0.win 8).blk t).view.emb (ix2 p g) = ix2 (node t.val (idx_facts t).1 p) g :=
    funext fun a => Fin.ext (by
      match a with
      | ⟨0, _⟩ => show win0_8.index t (0 : Fin 2) * 5000 + 1 * p.val = t.val * 5000 + p.val; omega
      | ⟨1, _⟩ => show win0_8.index t (1 : Fin 2) * 64 + 1 * g.val = g.val; omega)
  refine (pay2_apply _ _ _ _ _ _ _ p g).trans ?_
  show _ = projArr _ _ _ _ _ _ _ (((cfg0.win 8).blk t).view.emb (ix2 p g))
  rw [hemb]
  refine Finset.sum_congr rfl fun k _ => congrArg (· * _) ?_
  exact hiddenAt_tile t.val (idx_facts t).1 _ _ _ (V c main_v22) (V c main_v12) (V c main_arg0) _ _ _
    (blk_0 V c t) (blk_1 V c t) (blk_2 V c t) p k

/-- An index of window 7's array is in point `t`'s block iff each coordinate is in the block's range on its axis. -/
theorem mem_blk7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v24_0).slice (win0_7.rect t)).set ↔ _
  rw [View.set_slice_whole, Rect.mem_set_unit]
  exact Iff.rfl

/-- The ten row tiles cover window 7's array: node `n` lies in tile `n / 5000`. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto7 ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- An index of window 8's array is in point `t`'s block iff each coordinate is in the block's range on its axis. -/
theorem mem_blk8 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v24_1).slice (win0_8.rect t)).set ↔ _
  rw [View.set_slice_whole, Rect.mem_set_unit]
  exact Iff.rfl

/-- The ten row tiles cover window 8's array: node `n` lies in tile `n / 5000`. -/
theorem cover8 (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, ht⟩ := idx_onto8 ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- After the call the first result holds the hidden layer of every node. -/
theorem hidden_final (c : Dev nD) : (dat0 V c).arrAt 7 cfg0.N
    = hiddenArr (V c main_v22) (V c main_v12) (V c main_arg0) (V c main_arg2) (V c main_arg3) (V c main_v23) :=
  (dat0 V c).arrAt_eq_of_cover 7 _ (fun t _ => flushed7 V c t) cover7

/-- After the call the second result holds every node's projection. -/
theorem proj_final (c : Dev nD) : (dat0 V c).arrAt 8 cfg0.N
    = projArr (V c main_v22) (V c main_v12) (V c main_arg0) (V c main_arg2) (V c main_arg3) (V c main_v23) (V c main_arg5) :=
  (dat0 V c).arrAt_eq_of_cover 8 _ (fun t _ => flushed8 V c t) cover8

end Cert.KernelIdeal.RegionOne

end
-- ==== Proof.LibRowSoftmax.lean ====
/-
  A row softmax, read at an entry.

  The softmax of a row `f` of `b` extended reals is taken the stable way: the row's largest entry `M` (a maximum
  started from -∞) is subtracted from every entry before exponentiating, and each exponential is divided by the sum
  of the row's exponentials:  softmax f q = exp (f q - M) / Σ j, exp (f j - M).

  A kernel spells this on an `[a, b]` block with two lane reductions (a maximum and a sum along the second axis),
  each kept as an `[a, 1]` column and laid back along the row. A host program spells it with two reductions along
  the second axis, each broadcast back to a column and then to the row, and takes one more maximum with -∞ before
  subtracting. Over the extended reals both, read at entry `(p, q)`, are the softmax of row `p` at `q`.
-/
import Idealize.ShloMosaic.Lib.ValueIdx
import Idealize.ShloMosaic.Lib.IdealHost
import Idealize.ShloMosaic.PureOps.Ideal.Laws
import proofs.«133883_j77214922048048_2_alg».proof.Proof.LibColumn

noncomputable section

open scoped BigOperators

namespace Idealize.ShloMosaic.RowSoftmax

open Idealize.ShloMosaic Idealize.ShloMosaic.ValueIdx Idealize.ShloMosaic.Column

/-- The largest entry of a row, started from -∞. -/
def rowMax {b : ℕ} (f : Fin b → EReal) : EReal := (Finset.univ : Finset (Fin b)).fold max ⊥ f

/-- Entry `q` of the softmax of the row `f`. -/
def softmaxRow {b : ℕ} (f : Fin b → EReal) (q : Fin b) : EReal :=
  Ideal.div (Ideal.exp (f q - rowMax f)) (∑ j : Fin b, Ideal.exp (f j - rowMax f))

/-- The f32 pattern of -∞ is the bottom of the extended reals. -/
theorem ofBits_negInf_f32 : Ideal.ofBits .f32 0xFF800000#32 = ⊥ := by simp [Ideal.ofBits, Ideal.ieee]

/-- Dividing by one changes nothing, at the infinities too. -/
theorem div_one (x : EReal) : Ideal.div x 1 = x := by
  unfold Ideal.div
  rw [if_neg one_ne_zero, inv_one, mul_one]

/-- Row `p` of an `[a, b]` array with coordinate `k` put back on the reduced second axis is entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The kernel's two lane reductions -/

/-- A lane maximum from -∞ along the second axis, at row `p`, is the row's largest entry. -/
theorem lane_max_apply {a b : ℕ} (L : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction .maximumf [1] ⟨1, ![a]⟩ L 0xFF800000#32 h hφ hacc (ix1 p) = rowMax fun j => L (ix2 p j) := by
  rw [Ideal.multiReduction_maximumf_single]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- A lane sum from zero along the second axis, at row `p`, is the sum of the row's entries. -/
theorem lane_sum_apply {a b : ℕ} (E : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ E 0x00000000#32 h hφ hacc (ix1 p) = ∑ j : Fin b, E (ix2 p j) := by
  rw [Ideal.multiReduction_add_single]
  exact Finset.sum_congr rfl fun k _ => congrArg E (lift_row h p k)

section kernel
variable {a b : ℕ} (L : FVec Ideal ⟨2, ![a, b]⟩ .f32)
  (hr : (⟨2, ![a, b]⟩ : Shape).Reduces [1] (⟨1, ![a]⟩ : Shape))
  (hc : (⟨1, ![a]⟩ : Shape).ShapeCasts ⟨2, ![a, 1]⟩)
  (hb : (⟨2, ![a, 1]⟩ : Shape).Broadcasts ⟨2, ![a, b]⟩)
  (hφ : FKind.Formats .f32) (hmax : (0xFF800000#32 : BitVec 32) = FKind.maximumf.neutral .f32 hφ)

/-- The kernel's shifted exponentials: entry `(p, q)` is `exp` of the entry less its row's largest. -/
theorem lane_shifted_exp_apply (p : Fin a) (q : Fin b) :
    exp (subf L (broadcastTo ⟨2, ![a, b]⟩
      (shapeCast ⟨2, ![a, 1]⟩ (multiReduction .maximumf [1] ⟨1, ![a]⟩ L 0xFF800000#32 hr hφ hmax) hc) hb)) (ix2 p q)
      = Ideal.exp (L (ix2 p q) - rowMax fun j => L (ix2 p j)) := by
  show Ideal.exp (L (ix2 p q) - broadcastTo ⟨2, ![a, b]⟩
      (shapeCast ⟨2, ![a, 1]⟩ (multiReduction .maximumf [1] ⟨1, ![a]⟩ L 0xFF800000#32 hr hφ hmax) hc) hb (ix2 p q)) = _
  rw [broadcastTo_a1_ab_apply, shapeCast_a_a1_apply, lane_max_apply]

/-- The kernel's row softmax of an `[a, b]` block, read at `(p, q)`. -/
theorem lane_softmax_apply (hφ' : FKind.Formats .f32)
    (hadd : (0x00000000#32 : BitVec 32) = FKind.add.neutral .f32 hφ') (p : Fin a) (q : Fin b) :
    divf (exp (subf L (broadcastTo ⟨2, ![a, b]⟩
        (shapeCast ⟨2, ![a, 1]⟩ (multiReduction .maximumf [1] ⟨1, ![a]⟩ L 0xFF800000#32 hr hφ hmax) hc) hb)))
      (broadcastTo ⟨2, ![a, b]⟩ (shapeCast ⟨2, ![a, 1]⟩ (multiReduction .add [1] ⟨1, ![a]⟩
        (exp (subf L (broadcastTo ⟨2, ![a, b]⟩
          (shapeCast ⟨2, ![a, 1]⟩ (multiReduction .maximumf [1] ⟨1, ![a]⟩ L 0xFF800000#32 hr hφ hmax) hc) hb)))
        0x00000000#32 hr hφ' hadd) hc) hb) (ix2 p q)
      = softmaxRow (fun j => L (ix2 p j)) q := by
  rw [divf_apply, broadcastTo_a1_ab_apply, shapeCast_a_a1_apply, lane_sum_apply]
  unfold softmaxRow
  simp only [lane_shifted_exp_apply L hr hc hb hφ hmax]

end kernel

/-! ## The host's two reductions -/

/-- The host's maximum from -∞ along the second axis, at row `p`, is the row's largest entry. -/
theorem host_max_apply {a b : ℕ} (L : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf L (constant (F := Ideal) (⟨0, ![]⟩ : Shape) .f32 0xFF800000#32) h' hu (ix1 p)
      = rowMax fun j => L (ix2 p j) := by
  rw [Host.reduce_eq_fold_single FloatOps.maximumf L _ h' h hu]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- The host's sum from zero along the second axis, at row `p`, is the sum of the row's entries. -/
theorem host_sum_apply {a b : ℕ} (E : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd E (constant (F := Ideal) (⟨0, ![]⟩ : Shape) .f32 0x00000000#32) h' hu (ix1 p)
      = ∑ j : Fin b, E (ix2 p j) := by
  rw [hostReduceAdd_apply, Ideal.hostReduceAdd_single h' h]
  show Ideal.ofBits .f32 0x00000000#32 + _ = _
  rw [Ideal.ofBits_zero_f32, zero_add]
  exact Finset.sum_congr rfl fun k _ => congrArg E (lift_row h p k)

section host
variable {a b : ℕ} (L : FVec Ideal ⟨2, ![a, b]⟩ .f32)
  (hr' : (⟨2, ![a, b]⟩ : Shape).ReducesTo [1] (⟨1, ![a]⟩ : Shape))
  (hr : (⟨2, ![a, b]⟩ : Shape).Reduces [1] (⟨1, ![a]⟩ : Shape)) (hu : 0 < (⟨0, ![]⟩ : Shape).numel)
  (h0 : (⟨0, ![]⟩ : Shape).BroadcastsInDim (⟨1, ![a]⟩ : Shape) ![])
  (h1 : (⟨1, ![a]⟩ : Shape).BroadcastsInDim ⟨2, ![a, 1]⟩ ![0])
  (h2 : (⟨2, ![a, 1]⟩ : Shape).BroadcastsInDim ⟨2, ![a, b]⟩ ![0, 1])

include hr

/-- The host's shifted exponentials: the row's largest entry is first met with -∞ once more, which changes nothing. -/
theorem host_shifted_exp_apply (p : Fin a) (q : Fin b) :
    Host.exp (subf L (broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))))) (ix2 p q)
      = Ideal.exp (L (ix2 p q) - rowMax fun j => L (ix2 p j)) := by
  show Ideal.exp (L (ix2 p q) - broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))) (ix2 p q)) = _
  rw [broadcastInDim_a1_ab_apply, broadcastInDim_a_a1_apply, maximumf_apply, Column.broadcastInDim_scalar_apply,
    host_max_apply L hr' hr hu p]
  show Ideal.exp (L (ix2 p q) - max (Ideal.ofBits .f32 0xFF800000#32) _) = _
  rw [ofBits_negInf_f32, max_eq_right bot_le]

/-- The host's row softmax of an `[a, b]` array, read at `(p, q)`. -/
theorem host_softmax_apply (p : Fin a) (q : Fin b) :
    Host.divf (Host.exp (subf L (broadcastInDim ⟨2, ![a, b]⟩ ![0, 1] h2 (broadcastInDim ⟨2, ![a, 1]⟩ ![0] h1
        (maximumf (broadcastInDim (⟨1, ![a]⟩ : Shape) ![] h0 (constant (F := Ideal) (⟨0, ![]⟩ : Shape) .f32 0xFF800000#32))
          (Host.reduce FloatOps.maximumf L (constant (F := Ideal) (⟨0, ![]⟩ : Shape) .f32 0xFF800000#32) hr' hu))))))
      (broadcastInDim ⟨2, ![a, b]⟩ ![0, 1] h2 (broadcastInDim ⟨2, ![a, 1]⟩ ![0] h1
        (Host.reduceAdd (Host.exp (subf L (broadcastInDim ⟨2, ![a, b]⟩ ![0, 1] h2 (broadcastInDim ⟨2, ![a, 1]⟩ ![0] h1
          (maximumf (broadcastInDim (⟨1, ![a]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu))) (ix2 p q)
      = softmaxRow (fun j => L (ix2 p j)) q := by
  rw [hostDivf_apply, broadcastInDim_a1_ab_apply, broadcastInDim_a_a1_apply, host_sum_apply _ hr' hr hu p]
  unfold softmaxRow
  simp only [host_shifted_exp_apply L hr' hr hu h0 h1 h2]

end host

end Idealize.ShloMosaic.RowSoftmax

end
-- ==== Proof.LibRowLogSoftmax.lean ====
/-
  A row log-softmax, read at an entry.

  The log-softmax of a row `f` of `b` extended reals, taken the stable way: with `M` the row's largest entry
  (a maximum started from -∞),  logSoftmax f q = (f q - M) - log (Σ j, exp (f j - M)).

  A kernel spells this on an `[a, b]` block with a lane maximum and a lane sum along the second axis, each kept as an
  `[a, 1]` column and laid back along the row; the logarithm is taken on the column. A host program spells it with two
  reductions along the second axis, each broadcast back to a column and then to the row, meets the maximum with -∞
  once more, and takes the logarithm on the column too. Over the extended reals both, read at entry `(p, q)`, are
  the log-softmax of row `p` at `q`.
-/
import Idealize.ShloMosaic.Lib.ValueIdx
import Idealize.ShloMosaic.Lib.IdealHost
import Idealize.ShloMosaic.PureOps.Ideal.Laws
import proofs.«133883_j77214922048048_2_alg».proof.Proof.LibColumn
import proofs.«133883_j77214922048048_2_alg».proof.Proof.LibRowSoftmax

noncomputable section

open scoped BigOperators

namespace Idealize.ShloMosaic.RowLogSoftmax

open Idealize.ShloMosaic Idealize.ShloMosaic.ValueIdx Idealize.ShloMosaic.Column Idealize.ShloMosaic.RowSoftmax

/-- Entry `q` of the log-softmax of the row `f`. -/
def logSoftmaxRow {b : ℕ} (f : Fin b → EReal) (q : Fin b) : EReal :=
  (f q - rowMax f) - Ideal.log (∑ j : Fin b, Ideal.exp (f j - rowMax f))

section kernel
variable {a b : ℕ} (L : FVec Ideal ⟨2, ![a, b]⟩ .f32)
  (hr : (⟨2, ![a, b]⟩ : Shape).Reduces [1] (⟨1, ![a]⟩ : Shape))
  (hc : (⟨1, ![a]⟩ : Shape).ShapeCasts ⟨2, ![a, 1]⟩)
  (hb : (⟨2, ![a, 1]⟩ : Shape).Broadcasts ⟨2, ![a, b]⟩)
  (hφ : FKind.Formats .f32) (hmax : (0xFF800000#32 : BitVec 32) = FKind.maximumf.neutral .f32 hφ)

/-- The kernel's shifted block: entry `(p, q)` is the entry less its row's largest. -/
theorem lane_shifted_apply (p : Fin a) (q : Fin b) :
    subf L (broadcastTo ⟨2, ![a, b]⟩
      (shapeCast ⟨2, ![a, 1]⟩ (multiReduction .maximumf [1] ⟨1, ![a]⟩ L 0xFF800000#32 hr hφ hmax) hc) hb) (ix2 p q)
      = L (ix2 p q) - rowMax fun j => L (ix2 p j) := by
  rw [subf_apply, broadcastTo_a1_ab_apply, shapeCast_a_a1_apply, lane_max_apply]

/-- The kernel's row log-softmax of an `[a, b]` block, read at `(p, q)`. -/
theorem lane_logSoftmax_apply (hφ' : FKind.Formats .f32)
    (hadd : (0x00000000#32 : BitVec 32) = FKind.add.neutral .f32 hφ') (p : Fin a) (q : Fin b) :
    subf (subf L (broadcastTo ⟨2, ![a, b]⟩
        (shapeCast ⟨2, ![a, 1]⟩ (multiReduction .maximumf [1] ⟨1, ![a]⟩ L 0xFF800000#32 hr hφ hmax) hc) hb))
      (broadcastTo ⟨2, ![a, b]⟩ (log (shapeCast ⟨2, ![a, 1]⟩ (multiReduction .add [1] ⟨1, ![a]⟩
        (exp (subf L (broadcastTo ⟨2, ![a, b]⟩
          (shapeCast ⟨2, ![a, 1]⟩ (multiReduction .maximumf [1] ⟨1, ![a]⟩ L 0xFF800000#32 hr hφ hmax) hc) hb)))
        0x00000000#32 hr hφ' hadd) hc)) hb) (ix2 p q)
      = logSoftmaxRow (fun j => L (ix2 p j)) q := by
  rw [subf_apply, lane_shifted_apply, broadcastTo_a1_ab_apply]
  show _ - Ideal.log (shapeCast ⟨2, ![a, 1]⟩ (multiReduction .add [1] ⟨1, ![a]⟩
        (exp (subf L (broadcastTo ⟨2, ![a, b]⟩
          (shapeCast ⟨2, ![a, 1]⟩ (multiReduction .maximumf [1] ⟨1, ![a]⟩ L 0xFF800000#32 hr hφ hmax) hc) hb)))
        0x00000000#32 hr hφ' hadd) hc (ix2 p (0 : Fin 1))) = _
  rw [shapeCast_a_a1_apply, lane_sum_apply]
  unfold logSoftmaxRow
  simp only [lane_shifted_exp_apply L hr hc hb hφ hmax]

end kernel

section host
variable {a b : ℕ} (L : FVec Ideal ⟨2, ![a, b]⟩ .f32)
  (hr' : (⟨2, ![a, b]⟩ : Shape).ReducesTo [1] (⟨1, ![a]⟩ : Shape))
  (hr : (⟨2, ![a, b]⟩ : Shape).Reduces [1] (⟨1, ![a]⟩ : Shape)) (hu : 0 < (⟨0, ![]⟩ : Shape).numel)
  (h0 : (⟨0, ![]⟩ : Shape).BroadcastsInDim (⟨1, ![a]⟩ : Shape) ![])
  (h1 : (⟨1, ![a]⟩ : Shape).BroadcastsInDim ⟨2, ![a, 1]⟩ ![0])
  (h2 : (⟨2, ![a, 1]⟩ : Shape).BroadcastsInDim ⟨2, ![a, b]⟩ ![0, 1])

include hr

/-- The host's shifted array: the row's largest entry is first met with -∞ once more, which changes nothing. -/
theorem host_shifted_apply (p : Fin a) (q : Fin b) :
    subf L (broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu)))) (ix2 p q)
      = L (ix2 p q) - rowMax fun j => L (ix2 p j) := by
  rw [subf_apply, broadcastInDim_a1_ab_apply, broadcastInDim_a_a1_apply, maximumf_apply,
    Column.broadcastInDim_scalar_apply, host_max_apply L hr' hr hu p]
  show L (ix2 p q) - max (Ideal.ofBits .f32 0xFF800000#32) _ = _
  rw [ofBits_negInf_f32, max_eq_right bot_le]

/-- The host's row log-softmax of an `[a, b]` array, read at `(p, q)`. -/
theorem host_logSoftmax_apply (p : Fin a) (q : Fin b) :
    subf (subf L (broadcastInDim ⟨2, ![a, b]⟩ ![0, 1] h2 (broadcastInDim ⟨2, ![a, 1]⟩ ![0] h1
        (maximumf (broadcastInDim (⟨1, ![a]⟩ : Shape) ![] h0 (constant (F := Ideal) (⟨0, ![]⟩ : Shape) .f32 0xFF800000#32))
          (Host.reduce FloatOps.maximumf L (constant (F := Ideal) (⟨0, ![]⟩ : Shape) .f32 0xFF800000#32) hr' hu)))))
      (broadcastInDim ⟨2, ![a, b]⟩ ![0, 1] h2 (Host.log (broadcastInDim ⟨2, ![a, 1]⟩ ![0] h1
        (Host.reduceAdd (Host.exp (subf L (broadcastInDim ⟨2, ![a, b]⟩ ![0, 1] h2 (broadcastInDim ⟨2, ![a, 1]⟩ ![0] h1
          (maximumf (broadcastInDim (⟨1, ![a]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu)))) (ix2 p q)
      = logSoftmaxRow (fun j => L (ix2 p j)) q := by
  rw [subf_apply, host_shifted_apply L hr' hr hu h0 h1 h2, broadcastInDim_a1_ab_apply]
  show _ - Ideal.log (broadcastInDim ⟨2, ![a, 1]⟩ ![0] h1
        (Host.reduceAdd (Host.exp (subf L (broadcastInDim ⟨2, ![a, b]⟩ ![0, 1] h2 (broadcastInDim ⟨2, ![a, 1]⟩ ![0] h1
          (maximumf (broadcastInDim (⟨1, ![a]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu) (ix2 p (0 : Fin 1))) = _
  rw [broadcastInDim_a_a1_apply, host_sum_apply _ hr' hr hu p]
  unfold logSoftmaxRow
  simp only [host_shifted_exp_apply L hr' hr hu h0 h1 h2]

end host

end Idealize.ShloMosaic.RowLogSoftmax

end
-- ==== Proof.LibConcatCols.lean ====
/-
  Two arrays with the same rows laid side by side, read at an entry.

  Concatenating `[a, b₁]` and `[a, b₂]` along the columns gives `[a, c]` with `c = b₁ + b₂`. Entry `(p, n)` of the
  result is entry `(p, n)` of the first piece while `n < b₁`, and entry `(p, n - b₁)` of the second piece from
  column `b₁` on. The column is given with an equation (`n = k`, or `n = b₁ + k`) so that a caller whose column is a
  sum or a product of numerals can discharge it by arithmetic.
-/
import Idealize.ShloMosaic.Lib.ValueIdx
import Idealize.ShloMosaic.Lib.Pipeline.Value

noncomputable section

namespace Cert.LibConcatCols

open Idealize.ShloMosaic Idealize.ShloMosaic.ValueIdx

variable {α : Type} {a b₁ b₂ c : ℕ}

/-- A column inside the first piece reads the first piece there. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₁) (hn : n.val = k.val) :
    concatenate ⟨2, ![a, c]⟩ 1 [⟨⟨2, ![a, b₁]⟩, x₁⟩, ⟨⟨2, ![a, b₂]⟩, x₂⟩] h (ix2 p n) = x₁ (ix2 p k) :=
  concatenate_pair_apply_left (1 : Fin 2) x₁ x₂ h (ix2 p n) rfl (ix2 p k) fun d =>
    match d with
    | ⟨0, _⟩ => rfl
    | ⟨1, _⟩ => hn.symm

/-- A column past the first piece reads the second piece, the first piece's width to the left. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₂) (hn : n.val = b₁ + k.val) :
    concatenate ⟨2, ![a, c]⟩ 1 [⟨⟨2, ![a, b₁]⟩, x₁⟩, ⟨⟨2, ![a, b₂]⟩, x₂⟩] h (ix2 p n) = x₂ (ix2 p k) :=
  concatenate_pair_apply_right (1 : Fin 2) x₁ x₂ h (ix2 p n) rfl rfl (ix2 p k)
    (fun d hd =>
      match d, hd with
      | ⟨0, _⟩, _ => rfl
      | ⟨1, _⟩, hd => absurd rfl hd)
    (by show k.val + b₁ = n.val; omega)

end Cert.LibConcatCols

end
-- ==== Proof.LayerTwo.lean ====
/-
  The second pallas_call's body at one entry. On a tile of 5000 nodes the body forms, for node p and class g,

      o(p, g) = ( aggp(p, g) · inv(p) + Σ_k h(p, k) · W2_r(k, g) ) + b2(g),

  takes the stable log-softmax of each row o(p, ·) — a lane maximum started from -∞, the shifted row, a lane sum of
  its exponentials, the logarithm on the column — and stores the 64 classes followed by 64 zeros. So column n of the
  stored block is the log-softmax of row p at n when n < 64, and 0 from 64 on.
-/
import proofs.«133883_j77214922048048_2_alg».proof.Proof.Gen.KernelIdeal.Frame
import proofs.«133883_j77214922048048_2_alg».proof.Proof.LibDenseBlock
import proofs.«133883_j77214922048048_2_alg».proof.Proof.LibColumn
import proofs.«133883_j77214922048048_2_alg».proof.Proof.LibRowLogSoftmax
import proofs.«133883_j77214922048048_2_alg».proof.Proof.LibConcatCols
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LayerTwo

open Cert.KernelIdeal Cert.KernelIdeal.Gen
open Idealize.ShloMosaic Idealize.ShloMosaic.TcCoe Idealize.ShloMosaic.ValueIdx Idealize.SL.Sem
open scoped BigOperators

open Idealize.ShloMosaic.DenseBlock Idealize.ShloMosaic.Column Idealize.ShloMosaic.RowLogSoftmax

/-- The second layer's output before the log-softmax at node `p`, class `g`. -/
def outAt {K : ℕ} (ap : (⟨2, ![K, 64]⟩ : Shape).Idx → EReal) (iv : (⟨2, ![K, 1]⟩ : Shape).Idx → EReal)
    (h : (⟨2, ![K, 128]⟩ : Shape).Idx → EReal) (wr : (⟨2, ![128, 64]⟩ : Shape).Idx → EReal)
    (b : (⟨2, ![1, 64]⟩ : Shape).Idx → EReal) (p : Fin K) (g : Fin 64) : EReal :=
  (ap (ix2 p g) * iv (ix2 p (0 : Fin 1)) + ∑ k : Fin 128, h (ix2 p k) * wr (ix2 k g)) + b (ix2 (0 : Fin 1) g)

/-- The row the body takes the log-softmax of, at an entry. -/
theorem logits_apply (ap : Vec Ideal S5000x64 .f32) (iv : Vec Ideal S5000x1 .f32) (h : Vec Ideal S5000x128 .f32)
    (wr : Vec Ideal S128x64 .f32) (b : Vec Ideal S1x64 .f32) (p : Fin 5000) (g : Fin 64) :
    addf (F := Ideal) (addf (F := Ideal) (mulf (F := Ideal) ap (broadcastTo S5000x64 iv broadcasts_S5000x1_S5000x64))
        (matmul (F := Ideal) dot_S5000x128_S128x64_S5000x64_1_0_0_1_n_n none (truncf (F := Ideal) .bf16 h bitsLt_bf16_f32)
          (truncf (F := Ideal) .bf16 wr bitsLt_bf16_f32) (constant (F := Ideal) S5000x64 .f32 0x00000000#32)))
      (broadcastTo S5000x64 b broadcasts_S1x64_S5000x64) (ix2 p g) = outAt ap iv h wr b p g := by
  unfold outAt
  have e1 := broadcastTo_a1_ab_apply (a := 5000) (b := 64) iv broadcasts_S5000x1_S5000x64 p g
  have e2 := matmul_zero_apply (K := 5000) (N := 128) (Q := 64) dot_S5000x128_S128x64_S5000x64_1_0_0_1_n_n_wf
    (φ₁ := .bf16) (φ₂ := .bf16) h wr p g
  have e3 := broadcastTo_1b_ab_apply (a := 5000) (b := 64) b broadcasts_S1x64_S5000x64 p g
  exact congrArg₂ (· + ·) (congrArg₂ (· + ·) (congrArg (ap (ix2 p g) * ·) e1) e2) e3

/-- A column below 64 of the stored block is the log-softmax of the node's output row. -/
theorem pay_apply_left (ap : Vec Ideal S5000x64 .f32) (iv : Vec Ideal S5000x1 .f32) (h : Vec Ideal S5000x128 .f32)
    (wr : Vec Ideal S128x64 .f32) (b : Vec Ideal S1x64 .f32) (p : Fin 5000) (n : Fin 128) (g : Fin 64) (hn : n.val = g.val) :
    k1_pay1 (F := Ideal) ap iv h wr b (ix2 p n) = logSoftmaxRow (fun g' => outAt ap iv h wr b p g') g := by
  unfold k1_pay1
  rw [shapeCast_self, shapeCast_self, shapeCast_self, shapeCast_self]
  refine (Cert.LibConcatCols.concat_cols_left _ _ concatenates_S5000x64_S5000x64_S5000x128_d1 p n g hn).trans ?_
  refine (lane_logSoftmax_apply (a := 5000) (b := 64) _ reduces_S5000x64_S5000 shapeCasts_S5000_S5000x1
    broadcasts_S5000x1_S5000x64 (.inl rfl) rfl (.inl rfl) rfl p g).trans ?_
  exact congrArg (fun f => logSoftmaxRow f g) (funext fun g' => logits_apply ap iv h wr b p g')

/-- A column from 64 on of the stored block is zero. -/
theorem pay_apply_right (ap : Vec Ideal S5000x64 .f32) (iv : Vec Ideal S5000x1 .f32) (h : Vec Ideal S5000x128 .f32)
    (wr : Vec Ideal S128x64 .f32) (b : Vec Ideal S1x64 .f32) (p : Fin 5000) (n : Fin 128) (k : Fin 64) (hn : n.val = 64 + k.val) :
    k1_pay1 (F := Ideal) ap iv h wr b (ix2 p n) = 0 := by
  unfold k1_pay1
  refine (Cert.LibConcatCols.concat_cols_right _ _ concatenates_S5000x64_S5000x64_S5000x128_d1 p n k hn).trans ?_
  show Ideal.ofBits .f32 0x00000000#32 = 0
  exact Ideal.ofBits_zero_f32

end Cert.KernelIdeal.LayerTwo

end
-- ==== Proof.RegionTwo.lean ====
/-
  The second pallas_call over the whole graph: the same ten tiles of 5000 nodes. The projected neighbour sums, the
  reciprocal counts and the hidden layer are staged a tile of rows at a time, the second layer's own weights and its
  bias row stay resident, and the padded log-softmax block is written back a tile of rows at a time. After the call
  the result holds, for every node, the log-softmax of its 64 outputs in columns 0 … 63 and zeros in columns 64 … 127.
-/
import proofs.«133883_j77214922048048_2_alg».proof.Proof.Gen.KernelIdeal.Frame
import proofs.«133883_j77214922048048_2_alg».proof.Proof.LibDenseBlock
import proofs.«133883_j77214922048048_2_alg».proof.Proof.LibColumn
import proofs.«133883_j77214922048048_2_alg».proof.Proof.LayerTwo
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionTwo

open Cert.KernelIdeal Cert.KernelIdeal.Gen
open Idealize.ShloMosaic Idealize.ShloMosaic.TcCoe Idealize.ShloMosaic.ValueIdx Idealize.SL.Sem
open scoped BigOperators

open Cert.KernelIdeal.LayerTwo Idealize.ShloMosaic.RowLogSoftmax
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Node `p` of tile `t`. -/
def node (t : ℕ) (ht : t < 10) (p : Fin 5000) : Fin 50000 := ⟨t * 5000 + p.val, by have := p.isLt; omega⟩

/-- The index maps over the ten grid points: a row-tiled window's block index is the point's number on the node axis
    and 0 on the other; a resident window's block index is (0, 0). Decided once over the grid. -/
theorem idx_facts : ∀ t : Fin cfg1.N, t.val < 10
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Window 0's block at point `t` is rows `5000·t … 5000·t + 4999` of its array. -/
theorem blk_0 (c : Dev nD) (t : Fin cfg1.N) (p : Fin 5000) (j : Fin 64) :
    iblk1 V c 0 t (ix2 p j) = V c main_v34 (ix2 (node t.val (idx_facts t).1 p) j) := by
  have e0 := (idx_facts t).2.1
  have e1 := (idx_facts t).2.2.1
  show V c main_v34 (((cfg1.win 0).blk t).view.emb (ix2 p j)) = _
  refine congrArg (V c main_v34) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * j.val = j.val; omega

/-- Window 1's block at point `t` is rows `5000·t … 5000·t + 4999` of its array. -/
theorem blk_1 (c : Dev nD) (t : Fin cfg1.N) (p : Fin 5000) (j : Fin 1) :
    iblk1 V c 1 t (ix2 p j) = V c main_v12 (ix2 (node t.val (idx_facts t).1 p) j) := by
  have e0 := (idx_facts t).2.2.2.1
  have e1 := (idx_facts t).2.2.2.2.1
  show V c main_v12 (((cfg1.win 1).blk t).view.emb (ix2 p j)) = _
  refine congrArg (V c main_v12) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * j.val = j.val; omega

/-- Window 2's block at point `t` is rows `5000·t … 5000·t + 4999` of its array. -/
theorem blk_2 (c : Dev nD) (t : Fin cfg1.N) (p : Fin 5000) (j : Fin 128) :
    iblk1 V c 2 t (ix2 p j) = V c main_v24_0 (ix2 (node t.val (idx_facts t).1 p) j) := by
  have e0 := (idx_facts t).2.2.2.2.2.1
  have e1 := (idx_facts t).2.2.2.2.2.2.1
  show V c main_v24_0 (((cfg1.win 2).blk t).view.emb (ix2 p j)) = _
  refine congrArg (V c main_v24_0) (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * j.val = j.val; omega

/-- Window 3 is resident: its one block is its whole array. -/
theorem blk_3 (c : Dev nD) (t : Fin cfg1.N) : iblk1 V c 3 t = V c main_arg6 := by
  have e0 := (idx_facts t).2.2.2.2.2.2.2.1
  have e1 := (idx_facts t).2.2.2.2.2.2.2.2.1
  funext y
  obtain ⟨p, j, rfl⟩ : ∃ (p : Fin 128) (j : Fin 64), y = ix2 p j := ⟨y 0, y 1, eq_ix2 y⟩
  show V c main_arg6 (((cfg1.win 3).blk t).view.emb (ix2 p j)) = _
  refine congrArg (V c main_arg6) (funext fun a => Fin.ext ?_)
  match a with
  | ⟨0, _⟩ => show win1_3.index t (0 : Fin 2) * 128 + 1 * p.val = p.val; omega
  | ⟨1, _⟩ => show win1_3.index t (1 : Fin 2) * 64 + 1 * j.val = j.val; omega

/-- Window 4 is resident: its one block is its whole array. -/
theorem blk_4 (c : Dev nD) (t : Fin cfg1.N) : iblk1 V c 4 t = V c main_v35 := by
  have e0 := (idx_facts t).2.2.2.2.2.2.2.2.2.1
  have e1 := (idx_facts t).2.2.2.2.2.2.2.2.2.2.1
  funext y
  obtain ⟨p, j, rfl⟩ : ∃ (p : Fin 1) (j : Fin 64), y = ix2 p j := ⟨y 0, y 1, eq_ix2 y⟩
  show V c main_v35 (((cfg1.win 4).blk t).view.emb (ix2 p j)) = _
  refine congrArg (V c main_v35) (funext fun a => Fin.ext ?_)
  match a with
  | ⟨0, _⟩ => show win1_4.index t (0 : Fin 2) * 1 + 1 * p.val = p.val; omega
  | ⟨1, _⟩ => show win1_4.index t (1 : Fin 2) * 64 + 1 * j.val = j.val; omega

/-- Every tile of rows is some grid point's. -/
theorem idx_onto5 : ∀ q0 : Fin 10, ∃ t : Fin cfg1.N, win1_5.index t = ![q0.val, 0] :=
  (by decide +kernel : ∀ q0 : Fin 10, ∃ t : Fin grid1.N, win1_5.index t = ![q0.val, 0])

/-- The padded result of every node, as one function of the five arrays the body reads: the log-softmax of the
    node's outputs in the first 64 columns, zero in the rest. -/
def paddedArr (ap : S50000x64.Idx → EReal) (iv : S50000x1.Idx → EReal) (h : S50000x128.Idx → EReal)
    (wr : S128x64.Idx → EReal) (b : S1x64.Idx → EReal) : S50000x128.Idx → EReal :=
  fun i => if hc : (i 1).val < 64 then logSoftmaxRow (fun g' => outAt ap iv h wr b (i 0) g') ⟨(i 1).val, hc⟩ else 0

/-- On a tile whose rows are rows of the whole arrays, the tile's outputs are the whole arrays' outputs at those
    nodes. -/
theorem outAt_tile (T : ℕ) (hT : T < 10) (A0 : S5000x64.Idx → EReal) (A1 : S5000x1.Idx → EReal) (A2 : S5000x128.Idx → EReal)
    (W0 : S50000x64.Idx → EReal) (W1 : S50000x1.Idx → EReal) (W2 : S50000x128.Idx → EReal)
    (wr : S128x64.Idx → EReal) (b : S1x64.Idx → EReal)
    (h0 : ∀ (p : Fin 5000) (j : Fin 64), A0 (ix2 p j) = W0 (ix2 (node T hT p) j))
    (h1 : ∀ (p : Fin 5000) (j : Fin 1), A1 (ix2 p j) = W1 (ix2 (node T hT p) j))
    (h2 : ∀ (p : Fin 5000) (j : Fin 128), A2 (ix2 p j) = W2 (ix2 (node T hT p) j))
    (p : Fin 5000) (g : Fin 64) :
    outAt A0 A1 A2 wr b p g = outAt W0 W1 W2 wr b (node T hT p) g := by
  unfold outAt
  simp only [h0, h1, h2]

/-- What point `t` writes back is tile `t` of the padded result. -/
theorem flushed5 (c : Dev nD) (t : Fin cfg1.N) :
    (dat1 V c).flushed 5 t = ((cfg1.win 5).blk t).view.read (Elt Ideal)
      (paddedArr (V c main_v34) (V c main_v12) (V c main_v24_0) (V c main_arg6) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz,
    View.ld_unit_zero (S := S5000x64) hz, View.ld_unit_zero (S := S128x64) hz, View.ld_unit_zero (S := S1x64) hz]
  rw [blk_3 V c t, blk_4 V c t]
  funext y
  obtain ⟨p, n, rfl⟩ : ∃ (p : Fin 5000) (n : Fin 128), y = ix2 p n := ⟨y 0, y 1, eq_ix2 y⟩
  have e0 := (idx_facts t).2.2.2.2.2.2.2.2.2.2.2.1
  have e1 := (idx_facts t).2.2.2.2.2.2.2.2.2.2.2.2
  have hemb : ((cfg1.win 5).blk t).view.emb (ix2 p n) = ix2 (node t.val (idx_facts t).1 p) n :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * n.val = n.val; omega)
  show k1_pay1 (F := Ideal) _ _ _ _ _ (ix2 p n) = paddedArr _ _ _ _ _ (((cfg1.win 5).blk t).view.emb (ix2 p n))
  rw [hemb]
  unfold paddedArr
  by_cases hc : n.val < 64
  · rw [dif_pos (show ((ix2 (node t.val (idx_facts t).1 p) n : S50000x128.Idx) 1).val < 64 from hc)]
    refine (pay_apply_left _ _ _ _ _ p n ⟨n.val, hc⟩ rfl).trans ?_
    refine congrArg (fun f => logSoftmaxRow f (⟨n.val, hc⟩ : Fin 64)) (funext fun g' => ?_)
    exact outAt_tile t.val (idx_facts t).1 _ _ _ (V c main_v34) (V c main_v12) (V c main_v24_0) _ _
      (blk_0 V c t) (blk_1 V c t) (blk_2 V c t) p g'
  · rw [dif_neg (show ¬ ((ix2 (node t.val (idx_facts t).1 p) n : S50000x128.Idx) 1).val < 64 from hc)]
    have hn : n.val < 128 := n.isLt
    exact pay_apply_right _ _ _ _ _ p n ⟨n.val - 64, by omega⟩ (by show n.val = 64 + (n.val - 64); omega)

/-- An index of window 5's array is in point `t`'s block iff each coordinate is in the block's range on its axis. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- The ten row tiles cover window 5's array: node `n` lies in tile `n / 5000`. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the call the result holds the padded log-softmax of every node. -/
theorem padded_final (c : Dev nD) : (dat1 V c).arrAt 5 cfg1.N
    = paddedArr (V c main_v34) (V c main_v12) (V c main_v24_0) (V c main_arg6) (V c main_v35) :=
  (dat1 V c).arrAt_eq_of_cover 5 _ (fun t _ => flushed5 V c t) cover5

end Cert.KernelIdeal.RegionTwo

end
-- ==== Proof.KernelFold.lean ====
/-
  The kernel's program from the launch to the result, as one composed function of the eight arguments.

  Before the first pallas_call the host forms, from the edge list, the column of source rows (a negative source is
  first wrapped by the number of nodes) and the column of destination rows; the in-degree of every node as a
  scatter-add of ones, and from it the column  inv = 1 / max(degree, 1);  the neighbour sums of the features as a
  gather of source rows scatter-added into destination rows; and the first bias as one row. Between the two calls it
  gathers and scatter-adds the projection the first call produced, with the same two columns, and makes the second
  bias one row. After the second call it keeps the first 64 columns. The two calls themselves are the whole-graph
  functions of the arrays they are entered with (the hidden layer, its projection, the padded log-softmax).
-/
import proofs.«133883_j77214922048048_2_alg».proof.Proof.Gen.KernelIdeal.Frame
import proofs.«133883_j77214922048048_2_alg».proof.Proof.LibDenseBlock
import proofs.«133883_j77214922048048_2_alg».proof.Proof.LibColumn
import proofs.«133883_j77214922048048_2_alg».proof.Proof.HostArrays
import proofs.«133883_j77214922048048_2_alg».proof.Proof.RegionOne
import proofs.«133883_j77214922048048_2_alg».proof.Proof.RegionTwo
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem
open scoped BigOperators

open Idealize.ShloMosaic.StableHlo
open Cert.KernelIdeal.RegionOne (hiddenArr projArr)
open Cert.KernelIdeal.HostArrays
open Cert.KernelIdeal.RegionTwo (paddedArr)

/-- The hidden layer of every node, from the arguments. -/
def hiddenOf (x : S50000x128.Idx → EReal) (ei : S2x800000.Idx → BitVec 32) (w1l w1r : S128x128.Idx → EReal)
    (b1 : S128.Idx → EReal) : S50000x128.Idx → EReal :=
  hiddenArr (nbrSum128 x (srcVec ei) (dstVec ei)) (invCol (dstVec ei)) x w1l w1r (b1Row b1)
/-- Its projection by the second layer's neighbour weights. -/
def projOf (x : S50000x128.Idx → EReal) (ei : S2x800000.Idx → BitVec 32) (w1l w1r : S128x128.Idx → EReal)
    (b1 : S128.Idx → EReal) (w2l : S128x64.Idx → EReal) : S50000x64.Idx → EReal :=
  projArr (nbrSum128 x (srcVec ei) (dstVec ei)) (invCol (dstVec ei)) x w1l w1r (b1Row b1) w2l
/-- The kernel's result, from the arguments. -/
def kernelOut (x : S50000x128.Idx → EReal) (ei : S2x800000.Idx → BitVec 32) (w1l w1r : S128x128.Idx → EReal)
    (b1 : S128.Idx → EReal) (w2l w2r : S128x64.Idx → EReal) (b2 : S64.Idx → EReal) : S50000x64.Idx → EReal :=
  extractStridedSlice S50000x64 ![0, 0]
    (paddedArr (nbrSum64 (projOf x ei w1l w1r b1 w2l) (srcVec ei) (dstVec ei)) (invCol (dstVec ei))
      (hiddenOf x ei w1l w1r b1) w2r (b2Row b2)) slices_S50000x128_S50000x64_0_0

variable (m : (ℓ : Loc nD τ sig) → Buf (Elt Ideal) ℓ) (ρ : Dev nD → PrngReg) (c : Dev nD)

/-! ## The first host stretch -/

theorem W1_v1 : (W1 m ρ c (Proc.devRef .tc main_v1) : S800000.Idx → BitVec 32) = srcVec (m ((c : Thread nD τ).loc main_arg1)) := by
  show StableHlo.after hostOps0 (W0 m ρ c) (Proc.devRef .tc main_v1) = _
  after_results_simp <;> rfl
theorem W1_v3 : (W1 m ρ c (Proc.devRef .tc main_v3) : S800000.Idx → BitVec 32) = dstVec (m ((c : Thread nD τ).loc main_arg1)) := by
  show StableHlo.after hostOps0 (W0 m ρ c) (Proc.devRef .tc main_v3) = _
  after_results_simp <;> rfl
theorem W1_v22 : (W1 m ρ c (Proc.devRef .tc main_v22) : S50000x128.Idx → EReal)
    = nbrSum128 (m ((c : Thread nD τ).loc main_arg0)) (srcVec (m ((c : Thread nD τ).loc main_arg1))) (dstVec (m ((c : Thread nD τ).loc main_arg1))) := by
  show StableHlo.after hostOps0 (W0 m ρ c) (Proc.devRef .tc main_v22) = _
  after_results_simp <;> rfl
theorem W1_v12 : (W1 m ρ c (Proc.devRef .tc main_v12) : S50000x1.Idx → EReal) = invCol (dstVec (m ((c : Thread nD τ).loc main_arg1))) := by
  show StableHlo.after hostOps0 (W0 m ρ c) (Proc.devRef .tc main_v12) = _
  after_results_simp <;> rfl
theorem W1_v23 : (W1 m ρ c (Proc.devRef .tc main_v23) : S1x128.Idx → EReal) = b1Row (m ((c : Thread nD τ).loc main_arg4)) := by
  show StableHlo.after hostOps0 (W0 m ρ c) (Proc.devRef .tc main_v23) = _
  after_results_simp <;> rfl
theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg7 : W1 m ρ c (Proc.devRef .tc main_arg7) = (m ((c : Thread nD τ).loc main_arg7)) := by
  show StableHlo.after hostOps0 (W0 m ρ c) (Proc.devRef .tc main_arg7) = _
  after_results_simp <;> rfl

/-! ## The first call's exit -/

theorem W2_hidden : (W2 m ρ c (Proc.devRef .tc main_v24_0) : S50000x128.Idx → EReal)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 7).trans ((RegionOne.hidden_final (V1 m ρ) c).trans ?_)
  unfold hiddenOf
  rw [show V1 m ρ c main_v22 = _ from W1_v22 m ρ c, show V1 m ρ c main_v12 = _ from W1_v12 m ρ c,
    show V1 m ρ c main_arg0 = _ from W1_arg0 m ρ c, show V1 m ρ c main_arg2 = _ from W1_arg2 m ρ c,
    show V1 m ρ c main_arg3 = _ from W1_arg3 m ρ c, show V1 m ρ c main_v23 = _ from W1_v23 m ρ c]
theorem W2_proj : (W2 m ρ c (Proc.devRef .tc main_v24_1) : S50000x64.Idx → EReal)
    = projOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 8).trans ((RegionOne.proj_final (V1 m ρ) c).trans ?_)
  unfold projOf
  rw [show V1 m ρ c main_v22 = _ from W1_v22 m ρ c, show V1 m ρ c main_v12 = _ from W1_v12 m ρ c,
    show V1 m ρ c main_arg0 = _ from W1_arg0 m ρ c, show V1 m ρ c main_arg2 = _ from W1_arg2 m ρ c,
    show V1 m ρ c main_arg3 = _ from W1_arg3 m ρ c, show V1 m ρ c main_v23 = _ from W1_v23 m ρ c,
    show V1 m ρ c main_arg5 = _ from W1_arg5 m ρ c]
theorem W2_v1 : (W2 m ρ c (Proc.devRef .tc main_v1) : S800000.Idx → BitVec 32) = srcVec (m ((c : Thread nD τ).loc main_arg1)) :=
  (W2_of_ne m ρ c main_v1 (by decide)).trans (W1_v1 m ρ c)
theorem W2_v3 : (W2 m ρ c (Proc.devRef .tc main_v3) : S800000.Idx → BitVec 32) = dstVec (m ((c : Thread nD τ).loc main_arg1)) :=
  (W2_of_ne m ρ c main_v3 (by decide)).trans (W1_v3 m ρ c)
theorem W2_v12 : (W2 m ρ c (Proc.devRef .tc main_v12) : S50000x1.Idx → EReal) = invCol (dstVec (m ((c : Thread nD τ).loc main_arg1))) :=
  ((W2_arr m ρ c 1).trans (((dat0 (V1 m ρ) c).arrAt_in 1 rfl _).trans (A_eq0 (V1 m ρ) c 1))).trans (W1_v12 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ## The second host stretch -/

theorem W3_v34 : (W3 m ρ c (Proc.devRef .tc main_v34) : S50000x64.Idx → EReal)
    = nbrSum64 (projOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (srcVec (m ((c : Thread nD τ).loc main_arg1))) (dstVec (m ((c : Thread nD τ).loc main_arg1))) := by
  rw [← W2_proj m ρ c, ← W2_v1 m ρ c, ← W2_v3 m ρ c]
  show StableHlo.after hostOps1 (W2 m ρ c) (Proc.devRef .tc main_v34) = _
  after_results_simp <;> rfl
theorem W3_v35 : (W3 m ρ c (Proc.devRef .tc main_v35) : S1x64.Idx → EReal) = b2Row (m ((c : Thread nD τ).loc main_arg7)) := by
  rw [← W2_arg7 m ρ c]
  show StableHlo.after hostOps1 (W2 m ρ c) (Proc.devRef .tc main_v35) = _
  after_results_simp <;> rfl
theorem W3_v12 : (W3 m ρ c (Proc.devRef .tc main_v12) : S50000x1.Idx → EReal) = invCol (dstVec (m ((c : Thread nD τ).loc main_arg1))) := by
  rw [← W2_v12 m ρ c]
  show StableHlo.after hostOps1 (W2 m ρ c) (Proc.devRef .tc main_v12) = _
  after_results_simp <;> rfl
theorem W3_hidden : (W3 m ρ c (Proc.devRef .tc main_v24_0) : S50000x128.Idx → EReal)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  rw [← W2_hidden m ρ c]
  show StableHlo.after hostOps1 (W2 m ρ c) (Proc.devRef .tc main_v24_0) = _
  after_results_simp <;> rfl
theorem W3_arg6 : W3 m ρ c (Proc.devRef .tc main_arg6) = (m ((c : Thread nD τ).loc main_arg6)) := by
  rw [← W2_arg6 m ρ c]
  show StableHlo.after hostOps1 (W2 m ρ c) (Proc.devRef .tc main_arg6) = _
  after_results_simp <;> rfl

/-! ## The second call's exit and the last host line -/

/-- The kernel's result buffer ends at `kernelOut` of the arguments. -/
theorem result_eq : (W5 m ρ c (Proc.devRef .tc main_v37) : S50000x64.Idx → EReal)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h36 : (W4 m ρ c (Proc.devRef .tc main_v36) : S50000x128.Idx → EReal)
      = paddedArr (nbrSum64 (projOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (srcVec (m ((c : Thread nD τ).loc main_arg1))) (dstVec (m ((c : Thread nD τ).loc main_arg1))))
          (invCol (dstVec (m ((c : Thread nD τ).loc main_arg1)))) (hiddenOf (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6)) (b2Row (m ((c : Thread nD τ).loc main_arg7))) := by
    refine (W4_arr m ρ c 5).trans ((RegionTwo.padded_final (V3 m ρ) c).trans ?_)
    rw [show V3 m ρ c main_v34 = _ from W3_v34 m ρ c, show V3 m ρ c main_v12 = _ from W3_v12 m ρ c,
      show V3 m ρ c main_v24_0 = _ from W3_hidden m ρ c, show V3 m ρ c main_arg6 = _ from W3_arg6 m ρ c,
      show V3 m ρ c main_v35 = _ from W3_v35 m ρ c]
  unfold kernelOut
  rw [← h36]
  show StableHlo.after hostOps2 (W4 m ρ c) (Proc.devRef .tc main_v37) = _
  after_results_simp <;> rfl

end Cert.KernelIdeal.Fold

end
-- ==== Proof.LibProjectMean.lean ====
/-
  Mean aggregation commutes with a linear map, on the extended reals: reals inside the extended reals, their closure
  under the operations a dense layer uses, and the law that aggregating projected rows is projecting the aggregated
  rows. Imports the ideal operations only.

  The kernel aggregates AFTER projecting: for a node with in-edges S, reciprocal clamped degree 1/c, hidden rows h
  and weights w it forms   ( Σ_{e ∈ S} Σ_k h(src e, k) · w(k) ) · (1 / c),   while the reference projects the mean:
  Σ_k ( ( Σ_{e ∈ S} h(src e, k) ) / c ) · w(k).   Over the reals these agree (exchange the two finite sums, move the
  factor 1/c across them). On the extended reals moving a factor across a sum needs every term finite, so the law is
  stated for real-valued h and w and a real, non-zero c; where no sum is crossed — the first layer's
  a · (1 / c) = a / c — it holds for every a as soon as c ≠ 0.
-/
import Idealize.ShloMosaic.PureOps.Ideal

noncomputable section

open scoped BigOperators

namespace Cert.SageLaw

open Idealize.ShloMosaic

/-- An extended real that is a real number. -/
def IsReal (a : EReal) : Prop := ∃ r : ℝ, a = (r : EReal)

theorem IsReal.zero : IsReal 0 := ⟨0, rfl⟩
theorem IsReal.one : IsReal 1 := ⟨1, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (max a b) := by
  rcases max_choice a b with h | h <;> rw [h] <;> assumption
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The clamped degree `max d 1` is at least one, so it is not zero. -/
theorem clamp_ne_zero (d : EReal) : max d 1 ≠ 0 :=
  ne_of_gt (lt_of_lt_of_le (by exact_mod_cast zero_lt_one) (le_max_right d 1))

/-- Scaling by the reciprocal of a non-zero `c` is dividing by `c`, for every extended real `a`. -/
theorem mul_recip (a c : EReal) (hc : c ≠ 0) : a * Ideal.div 1 c = Ideal.div a c := by
  unfold Ideal.div
  rw [if_neg hc, if_neg hc, one_mul]

/-- The reciprocal of a real, non-zero `c` is a real. -/
theorem IsReal.recip {c : EReal} (hc : IsReal c) (h0 : c ≠ 0) : IsReal (Ideal.div 1 c) := by
  obtain ⟨r, rfl⟩ := hc
  have hr : r ≠ 0 := fun e => h0 (by rw [e]; rfl)
  rw [Ideal.div_coe hr]
  exact IsReal.one.mul ⟨1 / r, rfl⟩

/-- AGGREGATE-THEN-PROJECT IS PROJECT-THEN-AGGREGATE: for real-valued rows `h`, real weights `w` and a real non-zero
    `c`, the projected rows summed over the in-edges and scaled by `1 / c` are the summed rows divided by `c` and then
    projected. The leading zeros are the accumulators the two scatter-adds start from. -/
theorem project_mean {E R K : Type} [Fintype K] (S : Finset E) (src : E → R) (h : R → K → EReal) (w : K → EReal) (c : EReal)
    (hh : ∀ r k, IsReal (h r k)) (hw : ∀ k, IsReal (w k)) (hc : IsReal c) (h0 : c ≠ 0) :
    (0 + ∑ e ∈ S, ∑ k : K, h (src e) k * w k) * Ideal.div 1 c
      = ∑ k : K, Ideal.div (0 + ∑ e ∈ S, h (src e) k) c * w k := by
  choose hr hhr using hh
  choose wr hwr using hw
  obtain ⟨cr, rfl⟩ := hc
  have hcr : cr ≠ 0 := fun e => h0 (by rw [e]; rfl)
  simp only [hhr, hwr, zero_add, Ideal.div_coe hcr, one_mul]
  have lhs : (∑ e ∈ S, ∑ k : K, ((hr (src e) k : ℝ) : EReal) * ((wr k : ℝ) : EReal)) * (((1 / cr : ℝ)) : EReal)
      = (((∑ e ∈ S, ∑ k : K, hr (src e) k * wr k) * (1 / cr) : ℝ) : EReal) := by
    rw [EReal.coe_mul, coe_sum]
    refine congrArg (· * _) (Finset.sum_congr rfl fun e _ => ?_)
    rw [coe_sum]
    exact Finset.sum_congr rfl fun k _ => (EReal.coe_mul _ _).symm
  have rhs : (∑ k : K, (∑ e ∈ S, ((hr (src e) k : ℝ) : EReal)) * (((1 / cr : ℝ)) : EReal) * ((wr k : ℝ) : EReal))
      = (((∑ k : K, (∑ e ∈ S, hr (src e) k) * (1 / cr) * wr k : ℝ)) : EReal) := by
    rw [coe_sum]
    refine Finset.sum_congr rfl fun k _ => ?_
    rw [EReal.coe_mul, EReal.coe_mul, coe_sum]
  rw [lhs, rhs]
  refine congrArg _ ?_
  simp only [Finset.sum_mul]
  rw [Finset.sum_comm]
  exact Finset.sum_congr rfl fun k _ => Finset.sum_congr rfl fun e _ => by ring

end Cert.SageLaw

end
-- ==== Proof.Finite.lean ====
/-
  From the precondition to real numbers. The precondition says, of each of the seven float arguments, that every
  entry's magnitude is below +∞ — `jnp.all(|x| < inf)`, the seven conjoined by `and`. On the extended reals an entry
  whose magnitude max(x, −x) is below ⊤ is neither ⊤ nor ⊥, so it is a real number.
-/
import proofs.«133883_j77214922048048_2_alg».proof.Pre_finite_inputs
import proofs.«133883_j77214922048048_2_alg».proof.Proof.Gen.Pre_finite_inputs
import proofs.«133883_j77214922048048_2_alg».proof.Proof.LibProjectMean
import proofs.«133883_j77214922048048_2_alg».proof.Proof.LibColumn
import Idealize.ShloMosaic.Lib.ReduceAll
import Idealize.ShloMosaic.Lib.ValueIdx
import Idealize.ShloMosaic.Lib.Affine

set_option maxRecDepth 16384

noncomputable section

namespace Cert.SageFinite

open Idealize.ShloMosaic Idealize.ShloMosaic.ValueIdx Cert.SageLaw
open Cert.Pre_finite_inputs Cert.Pre_finite_inputs.Facts

instance : Subsingleton (⟨0, ![]⟩ : Shape).Idx := ⟨fun a b => funext fun d => d.elim0⟩

/-- An extended real whose magnitude is below +∞ is a real number. -/
theorem isReal_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One conjunct of the precondition: if "every magnitude is below +∞" reduces to true, every entry is real. -/
theorem all_real {S : Shape} {axes : List (Fin S.rank)} (x : S.Idx → EReal)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi (cmpf (F := Ideal) (φ := .f32) .olt (Host.absf (F := Ideal) x)
        (broadcastInDim S ![] hb (constant (F := Ideal) ⟨0, ![]⟩ .f32 0x7F800000#32))) (constantI ⟨0, ![]⟩ 1 1#1) hr hu ix0 = 1#1)
    (i : S.Idx) : IsReal (x i) := by
  have h := Host.reduce_andi_all _ _ hr hu ix0 e i
  change Ideal.cmp .olt (max (x i) (-(x i)))
    (broadcastInDim S ![] hb (constant (F := Ideal) ⟨0, ![]⟩ .f32 0x7F800000#32) i) = 1#1 at h
  rw [Column.broadcastInDim_scalar_apply] at h
  exact isReal_of_abs_lt _ h

/-- Under the precondition every entry of every float argument is a real number. -/
theorem reals_of_pre (x0 : FVec Ideal S50000x128 .f32) (ei : IVec S2x800000 32) (x2 x3 : FVec Ideal S128x128 .f32)
    (x4 : FVec Ideal S128 .f32) (x5 x6 : FVec Ideal S128x64 .f32) (x7 : FVec Ideal S64 .f32)
    (h : Cert.Pre_finite_inputs.fn (F := Ideal) x0 ei x2 x3 x4 x5 x6 x7 = fun _ => 1#1) :
    (∀ i, IsReal (x0 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) := by
  have h0 := congrFun h ix0
  dsimp only [Cert.Pre_finite_inputs.fn, Cert.Pre_finite_inputs.fn_part1] at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨all_real x0 _ _ _ e0, all_real x2 _ _ _ e2, all_real x3 _ _ _ e3, all_real x4 _ _ _ e4,
    all_real x5 _ _ _ e5, all_real x6 _ _ _ e6, all_real x7 _ _ _ e7⟩

end Cert.SageFinite

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«133883_j77214922048048_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibBiasRows.lean ====
/-
  A bias row laid along every row, as a host program spells it.

  A vector `[Q]` is first stood up as one row `[1, Q]` (its axis sent to the second axis) and that row is then repeated
  along `M` rows (both axes kept): entry `(r, q)` of the result is entry `q` of the vector.
-/
import Idealize.ShloMosaic.Lib.ValueIdx
import Idealize.ShloMosaic.Lib.Pipeline.Value

noncomputable section

namespace Idealize.ShloMosaic.BiasRows

open Idealize.ShloMosaic Idealize.ShloMosaic.ValueIdx

/-- Entry `(r, q)` of a vector broadcast to one row and then to `M` rows is the vector's entry `q`. -/
theorem biasRows_apply {α : Type} {M Q : Nat} (b : (⟨1, ![Q]⟩ : Shape).Idx → α)
    (h1 : (⟨1, ![Q]⟩ : Shape).BroadcastsInDim ⟨2, ![1, Q]⟩ ![1])
    (h2 : (⟨2, ![1, Q]⟩ : Shape).BroadcastsInDim ⟨2, ![M, Q]⟩ ![0, 1]) (r : Fin M) (q : Fin Q) :
    broadcastInDim ⟨2, ![M, Q]⟩ ![0, 1] h2 (broadcastInDim ⟨2, ![1, Q]⟩ ![1] h1 b) (ix2 r q) = b (ix1 q) := by
  rw [broadcastInDim_apply ![0, 1] h2 _ (ix2 r q) (ix2 (0 : Fin 1) q) (fun a => by
    match a with
    | ⟨0, _⟩ => rfl
    | ⟨1, _⟩ =>
      show q.val = if Q = 1 then 0 else q.val
      split
      · have := q.isLt; omega
      · rfl)]
  exact broadcastInDim_apply ![1] h1 b (ix2 (0 : Fin 1) q) (ix1 q) (fun a => by
    match a with
    | ⟨0, _⟩ =>
      show q.val = if Q = 1 then 0 else q.val
      split
      · have := q.isLt; omega
      · rfl)

end Idealize.ShloMosaic.BiasRows

end
-- ==== Proof.RefValue.lean ====
/-
  The reference program at an entry. Its stages, read one at a time:

    neighbour sums of the features   v13 = scatter-add by destination of the gathered source rows   (the same array the
                                           kernel's host lines build),
    degree                           v17 = scatter-add of ones by destination,
    first layer                      v28(n, q) = ( Σ_j (v13(n, j) / max(v17(n), 1)) · W1_l(j, q) + Σ_j x(n, j) · W1_r(j, q) ) + b1(q),
    hidden layer                     v29 = max(v28, 0),
    second layer                     v54(n, g) = ( Σ_k (nbr-sum of v29 (n, k) / max(degree(n), 1)) · W2_l(k, g)
                                                    + Σ_k v29(n, k) · W2_r(k, g) ) + b2(g),
    result                           v55(n, ·) = the stable log-softmax of v54(n, ·).

  The hidden layer is the kernel's hidden layer exactly: the kernel scales the neighbour sum by 1 / max(degree, 1)
  where the reference divides by max(degree, 1), and the divisor is never zero.
-/
import proofs.«133883_j77214922048048_2_alg».proof.Proof.RefRead
import proofs.«133883_j77214922048048_2_alg».proof.Proof.HostArrays
import proofs.«133883_j77214922048048_2_alg».proof.Proof.LayerOne
import proofs.«133883_j77214922048048_2_alg».proof.Proof.LibProjectMean
import proofs.«133883_j77214922048048_2_alg».proof.Proof.LibDenseHost
import proofs.«133883_j77214922048048_2_alg».proof.Proof.LibBiasRows
import proofs.«133883_j77214922048048_2_alg».proof.Proof.LibRowLogSoftmax
import proofs.«133883_j77214922048048_2_alg».proof.Proof.LibClampedMean
import Idealize.ShloMosaic.Lib.IdealHost

set_option maxRecDepth 16384

noncomputable section

namespace Cert.ReferenceIdeal.RefValue

open Cert.ReferenceIdeal Cert.ReferenceIdeal.ReadP Cert.ReferenceIdeal.Facts₀ Cert.ReferenceIdeal.Facts
open Idealize.ShloMosaic Idealize.ShloMosaic.ValueIdx
open Idealize.ShloMosaic.DenseBlock Idealize.ShloMosaic.Column Idealize.ShloMosaic.RowLogSoftmax
open Cert.KernelIdeal.HostArrays (srcVec dstVec nbrSum128 degVec invCol b1Row invCol_apply b1Row_apply zeros_apply)
open Cert.KernelIdeal.LayerOne (hiddenAt)
open Cert.SageLaw
open scoped BigOperators

variable (x0 : S50000x128.Idx → EReal) (x1 : S2x800000.Idx → BitVec 32) (x2 x3 : S128x128.Idx → EReal)
  (x4 : S128.Idx → EReal) (x5 x6 : S128x64.Idx → EReal) (x7 : S64.Idx → EReal)

/-- Entry `(e, q)` of the host's product is the row of the left operand against the column of the right one. -/
theorem host_dot_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (e : Fin E) (q : Fin Q) :
    Host.dotGeneral (mmDims E N Q wf) none X W (ix2 e q) = ∑ n : Fin N, X (ix2 e n) * W (ix2 n q) := by
  show FloatOps.dotGeneral (mmDims E N Q wf) none _ X W (ix2 e q) = _
  rw [dotGeneral_apply_ix2]

/-! ## The stages that are the kernel's host-side arrays -/

theorem v13_eq : val_main_v13 (F := Ideal) x0 x1 = nbrSum128 x0 (srcVec x1) (dstVec x1) := rfl
theorem v17_eq : val_main_v17 (F := Ideal) x1 = degVec (dstVec x1) := rfl
theorem v43_eq : val_main_v43 (F := Ideal) x1 = degVec (dstVec x1) := rfl
theorem v39_eq : val_main_v39 (F := Ideal) x0 x1 x2 x3 x4 = nbrSum128 (val_main_v29 (F := Ideal) x0 x1 x2 x3 x4) (srcVec x1) (dstVec x1) := rfl

/-! ## The clamped degree laid along a row -/

theorem clamp21 (n : Fin 50000) (j : Fin 128) :
    val_main_v21 (F := Ideal) x1 (ix2 n j) = max (degVec (dstVec x1) (ix1 n)) 1 := by
  unfold val_main_v21 val_main_v20 val_main_v19 val_main_v18 val_main_cst_3
  rw [broadcastInDim_a1_ab_apply, broadcastInDim_a_a1_apply, maximumf_apply, ClampedMean.ones_apply, v17_eq]
theorem clamp47 (n : Fin 50000) (j : Fin 128) :
    val_main_v47 (F := Ideal) x1 (ix2 n j) = max (degVec (dstVec x1) (ix1 n)) 1 := by
  unfold val_main_v47 val_main_v46 val_main_v45 val_main_v44 val_main_cst_9
  rw [broadcastInDim_a1_ab_apply, broadcastInDim_a_a1_apply, maximumf_apply, ClampedMean.ones_apply, v43_eq]

/-! ## The first layer -/

theorem v28_apply (n : Fin 50000) (q : Fin 128) :
    val_main_v28 (F := Ideal) x0 x1 x2 x3 x4 (ix2 n q)
      = ((∑ j : Fin 128, Ideal.div (nbrSum128 x0 (srcVec x1) (dstVec x1) (ix2 n j)) (max (degVec (dstVec x1) (ix1 n)) 1) * x2 (ix2 j q))
          + ∑ j : Fin 128, x0 (ix2 n j) * x3 (ix2 j q)) + x4 (ix1 q) := by
  have hl : ∀ k : Fin 128, lidx_main_v23 (ix2 n q) k = ix2 n k := fun k =>
    funext fun a => Fin.ext (by match a with | ⟨0, _⟩ => rfl | ⟨1, _⟩ => rfl)
  have hr : ∀ k : Fin 128, ridx_main_v23 (ix2 n q) k = ix2 k q := fun k =>
    funext fun a => Fin.ext (by match a with | ⟨0, _⟩ => rfl | ⟨1, _⟩ => rfl)
  have hl' : ∀ k : Fin 128, lidx_main_v24 (ix2 n q) k = ix2 n k := fun k =>
    funext fun a => Fin.ext (by match a with | ⟨0, _⟩ => rfl | ⟨1, _⟩ => rfl)
  have hr' : ∀ k : Fin 128, ridx_main_v24 (ix2 n q) k = ix2 k q := fun k =>
    funext fun a => Fin.ext (by match a with | ⟨0, _⟩ => rfl | ⟨1, _⟩ => rfl)
  have hb : idx_main_v26 (idx_main_v27 (ix2 n q)) = ix1 q :=
    funext fun a => Fin.ext (by match a with | ⟨0, _⟩ => rfl)
  rw [val_main_v28_apply, val_main_v25_apply, val_main_v23_apply, val_main_v24_apply, val_main_v27_apply,
    val_main_v26_apply, hb]
  refine congrArg₂ (· + ·) (congrArg₂ (· + ·) (Finset.sum_congr rfl fun k _ => ?_) (Finset.sum_congr rfl fun k _ => ?_)) rfl
  · rw [hl k, hr k, val_main_v22_apply, v13_eq, clamp21]
    rfl
  · rw [hl' k, hr' k]

/-- The reference's hidden layer is the kernel's, entry by entry. -/
theorem v29_apply (n : Fin 50000) (q : Fin 128) :
    val_main_v29 (F := Ideal) x0 x1 x2 x3 x4 (ix2 n q)
      = hiddenAt (nbrSum128 x0 (srcVec x1) (dstVec x1)) (invCol (dstVec x1)) x0 x2 x3 (b1Row x4) n q := by
  have e2 : val_main_call0_v0 (F := Ideal) (ix2 n q) = 0 := zeros_apply bcast_S_S50000x128 (ix2 n q)
  have hs : ∀ j : Fin 128, nbrSum128 x0 (srcVec x1) (dstVec x1) (ix2 n j) * invCol (dstVec x1) (ix2 n (0 : Fin 1))
      = Ideal.div (nbrSum128 x0 (srcVec x1) (dstVec x1) (ix2 n j)) (max (degVec (dstVec x1) (ix1 n)) 1) := fun j => by
    rw [invCol_apply]
    exact Ideal.mul_one_div (clamp_ne_zero _)
  rw [val_main_v29_apply, e2, v28_apply]
  unfold hiddenAt
  rw [b1Row_apply]
  simp only [hs] <;> rfl

/-! ## The second layer and the result -/

theorem v54_apply (n : Fin 50000) (g : Fin 64) :
    val_main_v54 (F := Ideal) x0 x1 x2 x3 x4 x5 x6 x7 (ix2 n g)
      = ((∑ k : Fin 128, Ideal.div (nbrSum128 (val_main_v29 (F := Ideal) x0 x1 x2 x3 x4) (srcVec x1) (dstVec x1) (ix2 n k))
              (max (degVec (dstVec x1) (ix1 n)) 1) * x5 (ix2 k g))
          + ∑ k : Fin 128, val_main_v29 (F := Ideal) x0 x1 x2 x3 x4 (ix2 n k) * x6 (ix2 k g)) + x7 (ix1 g) := by
  have hl : ∀ k : Fin 128, lidx_main_v49 (ix2 n g) k = ix2 n k := fun k =>
    funext fun a => Fin.ext (by match a with | ⟨0, _⟩ => rfl | ⟨1, _⟩ => rfl)
  have hr : ∀ k : Fin 128, ridx_main_v49 (ix2 n g) k = ix2 k g := fun k =>
    funext fun a => Fin.ext (by match a with | ⟨0, _⟩ => rfl | ⟨1, _⟩ => rfl)
  have hl' : ∀ k : Fin 128, lidx_main_v50 (ix2 n g) k = ix2 n k := fun k =>
    funext fun a => Fin.ext (by match a with | ⟨0, _⟩ => rfl | ⟨1, _⟩ => rfl)
  have hr' : ∀ k : Fin 128, ridx_main_v50 (ix2 n g) k = ix2 k g := fun k =>
    funext fun a => Fin.ext (by match a with | ⟨0, _⟩ => rfl | ⟨1, _⟩ => rfl)
  have hb : idx_main_v52 (idx_main_v53 (ix2 n g)) = ix1 g :=
    funext fun a => Fin.ext (by match a with | ⟨0, _⟩ => rfl)
  rw [val_main_v54_apply, val_main_v51_apply, val_main_v49_apply, val_main_v50_apply, val_main_v53_apply,
    val_main_v52_apply, hb]
  refine congrArg₂ (· + ·) (congrArg₂ (· + ·) (Finset.sum_congr rfl fun k _ => ?_) (Finset.sum_congr rfl fun k _ => ?_)) rfl
  · rw [hl k, hr k, val_main_v48_apply, v39_eq, clamp47]
    rfl
  · rw [hl' k, hr' k]

theorem reduces_50000x64 : (⟨2, ![50000, 64]⟩ : Shape).Reduces [1] (⟨1, ![50000]⟩ : Shape) := by decide

/-- The reference's result at `(n, g)` is the log-softmax of its second layer's row `n` at `g`. -/
theorem v55_apply (n : Fin 50000) (g : Fin 64) :
    val_main_v55 (F := Ideal) x0 x1 x2 x3 x4 x5 x6 x7 (ix2 n g)
      = logSoftmaxRow (fun g' => val_main_v54 (F := Ideal) x0 x1 x2 x3 x4 x5 x6 x7 (ix2 n g')) g := by
  unfold val_main_v55 val_main_call1_v10 val_main_call1_v9 val_main_call1_v8 val_main_call1_v7 val_main_call1_v6
    val_main_call1_v5 val_main_call1_v4 val_main_call1_v3 val_main_call1_v2 val_main_call1_v1 val_main_call1_v0
    val_main_call1_cst val_main_call1_cst_0 val_main_call1_cst_1
  exact host_logSoftmax_apply (a := 50000) (b := 64) (val_main_v54 (F := Ideal) x0 x1 x2 x3 x4 x5 x6 x7)
    reducesTo_S50000x64_S50000_d1 reduces_50000x64 h_S_ bcast_S_S50000 bcast_S50000_S50000x1_0 bcast_S50000x1_S50000x64_0_1 n g

end Cert.ReferenceIdeal.RefValue

end
-- ==== Proof.Bridge.lean ====
/-
  The two programs compute one function. Node by node and class by class both results are the log-softmax of a row of
  second-layer outputs, so it is enough that the rows agree:

      kernel      ( aggp(n, g) · inv(n) + Σ_k h(n, k) · W2_r(k, g) ) + b2(g),     aggp(n, g) = 0 + Σ_{e → n} Σ_k h(src e, k) · W2_l(k, g),
      reference   ( Σ_k ( (0 + Σ_{e → n} h(src e, k)) / c(n) ) · W2_l(k, g) + Σ_k h(n, k) · W2_r(k, g) ) + b2(g),

  with the same hidden layer h on both sides, inv(n) = 1 / c(n) and c(n) = max(degree(n), 1). The first summands agree
  by exchanging the sum over in-edges with the sum over k and moving 1 / c(n) across both — valid on the extended
  reals because every h(·, ·), every weight and c(n) are real numbers: the features, weights and biases are real by
  the precondition, a neighbour sum is a finite sum of feature entries (a gather always reads some row of the table),
  the degree is a finite sum of ones, and the hidden layer is built from these by sums, products and a maximum.
-/
import proofs.«133883_j77214922048048_2_alg».proof.Proof.KernelFold
import proofs.«133883_j77214922048048_2_alg».proof.Proof.RefValue
import proofs.«133883_j77214922048048_2_alg».proof.Proof.LibProjectMean

set_option maxRecDepth 16384

noncomputable section

namespace Cert.SageBridge

open Idealize.ShloMosaic Idealize.ShloMosaic.ValueIdx Idealize.ShloMosaic.RowLogSoftmax
open Cert.KernelIdeal Cert.KernelIdeal.Facts₀ Cert.KernelIdeal.Facts Cert.KernelIdeal.HostArrays Cert.KernelIdeal.Fold
open Cert.KernelIdeal.LayerOne (hiddenAt)
open Cert.KernelIdeal.LayerTwo (outAt)
open Cert.KernelIdeal.RegionOne (hiddenArr projArr)
open Cert.KernelIdeal.RegionTwo (paddedArr)
open Cert.ReferenceIdeal.ReadP Cert.ReferenceIdeal.RefValue
open Cert.SageLaw
open scoped BigOperators

variable (x0 : S50000x128.Idx → EReal) (x1 : S2x800000.Idx → BitVec 32) (x2 x3 : S128x128.Idx → EReal)
  (x4 : S128.Idx → EReal) (x5 x6 : S128x64.Idx → EReal) (x7 : S64.Idx → EReal)

/-! ## Everything the hidden layer is built from is real -/

theorem clamp_real (n : Fin 50000) : IsReal (max (degVec (dstVec x1) (ix1 n)) 1) := by
  rw [degVec_apply]
  exact ((IsReal.zero.add (IsReal.sum _ _ fun _ _ => IsReal.one)).max IsReal.one)

theorem inv_real (n : Fin 50000) (u : Fin 1) : IsReal (invCol (dstVec x1) (ix2 n u)) := by
  rw [invCol_apply]
  exact (clamp_real x1 n).recip (clamp_ne_zero _)

theorem agg_real (h0 : ∀ i, IsReal (x0 i)) (n : Fin 50000) (j : Fin 128) :
    IsReal (nbrSum128 x0 (srcVec x1) (dstVec x1) (ix2 n j)) := by
  rw [nbrSum128_apply]
  exact IsReal.zero.add (IsReal.sum _ _ fun _ _ => h0 _)

theorem hidden_real (h0 : ∀ i, IsReal (x0 i)) (h2 : ∀ i, IsReal (x2 i)) (h3 : ∀ i, IsReal (x3 i)) (h4 : ∀ i, IsReal (x4 i))
    (r : Fin 50000) (q : Fin 128) : IsReal (hiddenAt (nbrSum128 x0 (srcVec x1) (dstVec x1)) (invCol (dstVec x1)) x0 x2 x3 (b1Row x4) r q) := by
  unfold hiddenAt
  refine IsReal.max (((IsReal.sum _ _ fun j _ => ((agg_real x0 x1 h0 r j).mul (inv_real x1 r 0)).mul (h2 _)).add
    (IsReal.sum _ _ fun j _ => (h0 _).mul (h3 _))).add ?_) IsReal.zero
  rw [b1Row_apply]
  exact h4 _

/-! ## The rows agree -/

/-- The kernel's hidden array is the reference's hidden stage. -/
theorem hidden_eq : hiddenOf x0 x1 x2 x3 x4 = val_main_v29 (F := Ideal) x0 x1 x2 x3 x4 := by
  funext i
  obtain ⟨n, q, rfl⟩ : ∃ (n : Fin 50000) (q : Fin 128), i = ix2 n q := ⟨i 0, i 1, eq_ix2 i⟩
  rw [v29_apply]
  rfl

theorem rows_agree (h0 : ∀ i, IsReal (x0 i)) (h2 : ∀ i, IsReal (x2 i)) (h3 : ∀ i, IsReal (x3 i)) (h4 : ∀ i, IsReal (x4 i))
    (h5 : ∀ i, IsReal (x5 i)) (n : Fin 50000) (g : Fin 64) :
    outAt (nbrSum64 (projOf x0 x1 x2 x3 x4 x5) (srcVec x1) (dstVec x1)) (invCol (dstVec x1)) (hiddenOf x0 x1 x2 x3 x4) x6 (b2Row x7) n g
      = val_main_v54 (F := Ideal) x0 x1 x2 x3 x4 x5 x6 x7 (ix2 n g) := by
  rw [v54_apply, ← hidden_eq]
  unfold outAt
  rw [b2Row_apply, invCol_apply, nbrSum64_apply]
  have hp : ∀ e : Fin 800000, projOf x0 x1 x2 x3 x4 x5 (ix2 (rowOf (srcVec x1) e) g)
      = ∑ k : Fin 128, hiddenAt (nbrSum128 x0 (srcVec x1) (dstVec x1)) (invCol (dstVec x1)) x0 x2 x3 (b1Row x4) (rowOf (srcVec x1) e) k * x5 (ix2 k g) := fun e => rfl
  have hs : ∀ k : Fin 128, nbrSum128 (hiddenOf x0 x1 x2 x3 x4) (srcVec x1) (dstVec x1) (ix2 n k)
      = 0 + ∑ e ∈ inE (dstVec x1) n, hiddenAt (nbrSum128 x0 (srcVec x1) (dstVec x1)) (invCol (dstVec x1)) x0 x2 x3 (b1Row x4) (rowOf (srcVec x1) e) k := fun k => by
    rw [nbrSum128_apply]; rfl
  simp only [hp, hs]
  have key := project_mean (inE (dstVec x1) n) (rowOf (srcVec x1)) (fun r k => hiddenAt (nbrSum128 x0 (srcVec x1) (dstVec x1)) (invCol (dstVec x1)) x0 x2 x3 (b1Row x4) r k) (fun k => x5 (ix2 k g))
    (max (degVec (dstVec x1) (ix1 n)) 1)
    (fun r k => hidden_real x0 x1 x2 x3 x4 h0 h2 h3 h4 r k) (fun k => h5 _) (clamp_real x1 n) (clamp_ne_zero _)
  exact congrArg₂ (· + ·) (congrArg₂ (· + ·) key rfl) rfl

/-- THE BRIDGE: under real inputs the kernel's composed result is the reference's last stage. -/
theorem kernel_eq_reference (h0 : ∀ i, IsReal (x0 i)) (h2 : ∀ i, IsReal (x2 i)) (h3 : ∀ i, IsReal (x3 i))
    (h4 : ∀ i, IsReal (x4 i)) (h5 : ∀ i, IsReal (x5 i)) :
    kernelOut x0 x1 x2 x3 x4 x5 x6 x7 = val_main_v55 (F := Ideal) x0 x1 x2 x3 x4 x5 x6 x7 := by
  funext i
  obtain ⟨n, g, rfl⟩ : ∃ (n : Fin 50000) (g : Fin 64), i = ix2 n g := ⟨i 0, i 1, eq_ix2 i⟩
  rw [v55_apply]
  unfold kernelOut
  rw [slice2_axis1_eq (n0 := 50000) (n1 := 128) (m := 64) 0 _ slices_S50000x128_S50000x64_0_0 n g]
  have hg : g.val < 64 := g.isLt
  have hcol : ∀ (AP : S50000x64.Idx → EReal) (IV' : S50000x1.Idx → EReal) (H : S50000x128.Idx → EReal)
      (W : S128x64.Idx → EReal) (B : S1x64.Idx → EReal) (k : Fin 128) (hk : k.val < 64),
      paddedArr AP IV' H W B (ix2 n k) = logSoftmaxRow (fun g' => outAt AP IV' H W B n g') ⟨k.val, hk⟩ := by
    intro AP IV' H W B k hk
    unfold paddedArr
    exact dif_pos hk
  rw [hcol _ _ _ _ _ _ (show (0 + g.val) < 64 by omega)]
  have hfin : (⟨0 + g.val, show (0 + g.val) < 64 by omega⟩ : Fin 64) = g := Fin.ext (Nat.zero_add _)
  rw [hfin]
  exact congrArg (fun f => logSoftmaxRow f g) (funext fun g' => rows_agree x0 x1 x2 x3 x4 x5 x6 x7 h0 h2 h3 h4 h5 n g')

end Cert.SageBridge

end
-- ==== Proof.lean ====
/-
  A two-layer GraphSAGE network with mean aggregation, followed by a log-softmax over the 64 classes, on a graph of
  50000 nodes and 800000 edges:

      h   = relu( mean_{e → n} x(src e) · W1_l + x(n) · W1_r + b1 ),
      out = log_softmax( mean_{e → n} h(src e) · W2_l + h(n) · W2_r + b2 ),

  where the mean over the in-edges of a node divides by max(in-degree, 1). The kernel computes the same network in
  another arrangement: it scales by the reciprocal 1 / max(in-degree, 1) instead of dividing, and in the second layer
  it projects every node's hidden row by W2_l FIRST and aggregates the 64-wide projections, where the reference
  aggregates the 128-wide hidden rows and projects the mean. Over the reals the two arrangements agree (a finite sum
  of products may be exchanged with another finite sum, and a common factor moved across both); on the extended
  reals that needs every term finite, which the precondition gives: finite features, weights and biases make every
  neighbour sum, every degree and every hidden entry a real number. The dense parts run on tiles of 5000 nodes; the
  tiles partition the nodes, and each tile's rows depend only on the same rows of the arrays staged with it, so the
  tiled results are the whole-graph functions. The kernel also pads its 64 output columns to 128 with zeros and the
  host cuts the padding off again.

  The frames of the two kernel programs are the generated frame certificates; the reference's frame is its run with
  the result dropped; the ideal pass rewrote nothing, so there is nothing to preserve.
-/
import proofs.«133883_j77214922048048_2_alg».proof.Defs
import proofs.«133883_j77214922048048_2_alg».proof.Proof.Gen.Kernel
import proofs.«133883_j77214922048048_2_alg».proof.Proof.Gen.Kernel.Frame
import proofs.«133883_j77214922048048_2_alg».proof.Proof.Gen.KernelIdeal
import proofs.«133883_j77214922048048_2_alg».proof.Proof.Gen.KernelIdeal.Frame
import proofs.«133883_j77214922048048_2_alg».proof.Proof.Gen.ReferenceIdeal
import proofs.«133883_j77214922048048_2_alg».proof.Proof.Gen.Pre_finite_inputs
import proofs.«133883_j77214922048048_2_alg».proof.Proof.RefRun
import proofs.«133883_j77214922048048_2_alg».proof.Proof.RefRead
import proofs.«133883_j77214922048048_2_alg».proof.Proof.KernelRun
import proofs.«133883_j77214922048048_2_alg».proof.Proof.KernelFold
import proofs.«133883_j77214922048048_2_alg».proof.Proof.Finite
import proofs.«133883_j77214922048048_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- At the ideal instance the kernel's result buffer ends at its composed function of the arguments (the named run and
    the fold through its five segments) and the reference's at its last stage (its run); the memories agree on the
    arguments, the precondition makes every float entry real, and for real inputs the two functions are one. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.Fold.result_eq m ρ c), (h c).2⟩)
      (Cert.KernelIdeal.RunValue.run_named (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2]
  obtain ⟨h0, h2, h3, h4, h5, -, -⟩ := Cert.SageFinite.reals_of_pre _ _ _ _ _ _ _ _ (hpre c)
  exact (Cert.SageBridge.kernel_eq_reference _ _ _ _ _ _ _ _ h0 h2 h3 h4 h5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
